-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S130x128 : Shape := ⟨2, ![130, 128]⟩
abbrev S_ : Shape := ⟨0, ![]⟩

class Facts : Prop where
  bcast_S_S130x128 : S_.BroadcastsInDim S130x128 (![] : Fin 0 → Fin S130x128.rank)
  reducesTo_S130x128_S_d0_1 : S130x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S130x128 .f32) : IVec S_ 1 :=
  let main_v0 : FVec F S130x128 .f32 := Host.absf main_arg1
  let main_cst : FVec F S_ .f32 := constant S_ .f32 0x7F800000#32
  let main_v1 : FVec F S130x128 .f32 := broadcastInDim S130x128 ![] bcast_S_S130x128 main_cst
  let main_v2 : IVec S130x128 1 := cmpf .olt main_v0 main_v1
  let main_c : IVec S_ 1 := constantI S_ 1 1#1
  let main_v3 : IVec S_ 1 := (fun x v => Host.reduce IntOp.andi x v reducesTo_S130x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 127#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S130x128 : Shape := ⟨2, ![130, 128]⟩
abbrev S819200 : Shape := ⟨1, ![819200]⟩
abbrev S819200x128 : Shape := ⟨2, ![819200, 128]⟩
abbrev S128 : Shape := ⟨1, ![128]⟩
abbrev S128x128 : Shape := ⟨2, ![128, 128]⟩
abbrev S_ : Shape := ⟨0, ![]⟩
abbrev S4096x200x128 : Shape := ⟨3, ![4096, 200, 128]⟩

abbrev nBuf : Table → Nat
  | .hbm => 5
  | .local .scVector .vmem => 2
  | _ => 0

abbrev bufTy : (tb : Table) → Fin (nBuf tb) → BufTy
  | .hbm, ⟨0, _⟩ => ⟨S4096x200, .i32⟩
  | .hbm, ⟨1, _⟩ => ⟨S130x128, .f32⟩
  | .hbm, ⟨2, _⟩ => ⟨S819200, .i32⟩
  | .hbm, ⟨3, _⟩ => ⟨S819200x128, .f32⟩
  | .hbm, ⟨4, _⟩ => ⟨S4096x200x128, .f32⟩
  | .local .scVector .vmem, ⟨0, _⟩ => ⟨S128, .i32⟩
  | .local .scVector .vmem, ⟨1, _⟩ => ⟨S128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c200_i32 : BitVec 32 := 200#32
  let v3 : BitVec 32 := Scalar.addi c0_i32_0 c200_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  inb_S130x128_S130x128_0_0 : ∀ a, (![0, 0] : Fin 2 → Nat) a + S130x128.size a ≤ S130x128.size a
  gathers_S130x128_S128x128 : S130x128.Gathers 0 S128x128
  shapeCasts_S819200x128_S4096x200x128 : S819200x128.ShapeCasts S4096x200x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S128.size a ≤ S819200.size a
  k0_off2_inb : ∀ (i : grid0.Coords) (k0_t1 : Fin k0_t1_loop.trips), ∀ a, (k0_off2 i k0_t1) a + S128x128.size a ≤ S819200x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S4096x200 : Shape := ⟨2, ![4096, 200]⟩
abbrev S130x128 : Shape := ⟨2, ![130, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S130x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S130x128_S4096x200x1_S4096x200x128_2_0_n_n_0_2_1128_wf : GatherDims.WF S130x128 S4096x200x1 S4096x200x128 [2] [0] [] [0] [] 2 ![1, 128]

variable [Facts₀]

def gather_S130x128_S4096x200x1_S4096x200x128_2_0_n_n_0_2_1128 : GatherDims S130x128 S4096x200x1 S4096x200x128 where
  offsetDims := [2]
  collapsedSliceDims := [0]
  operandBatchingDims := []
  startIndicesBatchingDims := []
  startIndexMap := [0]
  indexVectorDim := 2
  sliceSizes := ![1, 128]
  wf := gather_S130x128_S4096x200x1_S4096x200x128_2_0_n_n_0_2_1128_wf

class Facts : Prop extends Facts₀ where

variable [Facts]
-- ==== Proof.LookupSpec.lean ====
/-
  The function both programs compute, stated once over plain index functions: a table of 130 rows of 128 numbers,
  a list of 32-bit words, and for each word the table's row it names. Two arrangements of the same lookup: over a
  flat list of 819200 words (what the kernel's tiles fill, 128 rows at a time), and over the 4096 x 200 batch (what the
  reference returns). A word names the row whose number is its unsigned value; for definiteness a value of 130 or more is
  reduced modulo 130, which never happens under the claim's precondition (every word is at most 127).
-/
import Idealize.ShloMosaic.PureOps
import Idealize.ShloMosaic.Lib.ValueIdx

noncomputable section

namespace Cert.Lookup

open Idealize.ShloMosaic Idealize.ShloMosaic.ValueIdx

abbrev SBatch : Shape := ⟨2, ![4096, 200]⟩
abbrev STable : Shape := ⟨2, ![130, 128]⟩
abbrev SFlat : Shape := ⟨1, ![819200]⟩
abbrev SRows : Shape := ⟨2, ![819200, 128]⟩
abbrev SOut : Shape := ⟨3, ![4096, 200, 128]⟩

/-- The table row a word names. -/
def rowOf (w : BitVec 32) : Fin 130 := ⟨w.toNat % 130, Nat.mod_lt _ (by decide)⟩

/-- A word below 130 names the row of its own value. -/
theorem rowOf_of_lt {w : BitVec 32} (h : w.toNat < 130) : rowOf w = ⟨w.toNat, h⟩ :=
  Fin.ext (Nat.mod_eq_of_lt h)

/-- The lookup over a flat list: row `r` of the result is the table's row named by word `r`. -/
def rowsOf {α : Type} (flat : SFlat.Idx → BitVec 32) (tab : STable.Idx → α) : SRows.Idx → α :=
  fun j => tab (ix2 (rowOf (flat (ix1 (j 0 : Fin 819200)))) (j 1 : Fin 128))

/-- The lookup over the batch: entry `(b, h, :)` of the result is the table's row named by word `(b, h)`. -/
def lookup {α : Type} (idx : SBatch.Idx → BitVec 32) (tab : STable.Idx → α) : SOut.Idx → α :=
  fun j => tab (ix2 (rowOf (idx (ix2 (j 0 : Fin 4096) (j 1 : Fin 200)))) (j 2 : Fin 128))

theorem casts_batch_flat : SBatch.ShapeCasts SFlat := by decide
theorem casts_rows_out : SRows.ShapeCasts SOut := by decide

/-- The lookup taken the long way round: flatten the batch of words in row-major order, look up over the flat list, and
    cut the 819200 rows back into the batch. -/
def viaFlat {α : Type} (idx : SBatch.Idx → BitVec 32) (tab : STable.Idx → α) : SOut.Idx → α :=
  shapeCast SOut (rowsOf (shapeCast SFlat idx casts_batch_flat) tab) casts_rows_out

end Cert.Lookup

end
-- ==== Proof.LookupLaws.lean ====
/-
  Laws of the lookup. (1) Flattening the batch of words in row-major order, looking up over the flat list and cutting the
  rows back gives the lookup over the batch: word (b, h) sits at flat position 200 * b + h, and entry (b, h, k) of the result
  sits at row 200 * b + h, column k, of the flat result. (2) An indirect gather's payload read at an entry: the table at
  the row the entry's first coordinate is sent to, same column.
-/
import proofs.«206145_g82884278878518_cont_9to1_m_1113_2_alg».proof.Proof.LookupSpec
import Idealize.ShloMosaic.Lib.Pipeline.Value
import Idealize.ShloMosaic.Lib.SparseCore.Stream

noncomputable section

namespace Cert.Lookup

open Idealize.ShloMosaic Idealize.ShloMosaic.ValueIdx

/-- The flattened batch of words at flat position `200 * b + h` is word `(b, h)`. -/
theorem flat_apply (idx : SBatch.Idx → BitVec 32) (b : Fin 4096) (h : Fin 200) (p : Fin 819200)
    (hp : p.val = b.val * 200 + h.val) :
    shapeCast SFlat idx casts_batch_flat (ix1 p) = idx (ix2 b h) :=
  shapeCast_apply idx casts_batch_flat (ix1 p) (ix2 b h) (by
    rw [Shape.rowMajor_val_two, Shape.rowMajor_val_one]
    show b.val * 200 + h.val = p.val
    omega)

/-- The lookup taken over the flat list and cut back into the batch is the lookup over the batch. -/
theorem viaFlat_eq {α : Type} (idx : SBatch.Idx → BitVec 32) (tab : STable.Idx → α) : viaFlat idx tab = lookup idx tab := by
  funext j
  obtain ⟨b, h, k, rfl⟩ : ∃ (b : Fin 4096) (h : Fin 200) (k : Fin 128), j = ix3 b h k := ⟨j 0, j 1, j 2, eq_ix3 j⟩
  have hp : b.val * 200 + h.val < 819200 := by
    have := b.isLt; have := h.isLt; omega
  have e : viaFlat idx tab (ix3 b h k)
      = rowsOf (shapeCast SFlat idx casts_batch_flat) tab (ix2 (⟨b.val * 200 + h.val, hp⟩ : Fin 819200) k) :=
    shapeCast_apply _ casts_rows_out (ix3 b h k) (ix2 (⟨b.val * 200 + h.val, hp⟩ : Fin 819200) k) (by
      rw [Shape.rowMajor_val_two, Shape.rowMajor_val_three]
      show (b.val * 200 + h.val) * 128 + k.val = (b.val * 200 + h.val) * 128 + k.val
      rfl)
  rw [e]
  show tab (ix2 (rowOf (shapeCast SFlat idx casts_batch_flat (ix1 (⟨b.val * 200 + h.val, hp⟩ : Fin 819200)))) k)
    = tab (ix2 (rowOf (idx (ix2 b h))) k)
  rw [flat_apply idx b h ⟨b.val * 200 + h.val, hp⟩ rfl]

/-- The shape of one tile of the result: 128 rows of 128 numbers. -/
abbrev T128 : Shape := ⟨2, ![128, 128]⟩

/-- An indirect gather's payload along the rows, read at entry `x`: the table at the row that the entry's own row
    `x 0` is sent to, at the entry's own column `x 1`. -/
theorem gatherPayload_apply {F : FTy → Type} (hg : STable.Gathers 0 T128) (g : STable.Idx → Elt F .f32)
    (r : Fin (T128.size hg.axis') → Fin (STable.size hg.axis)) (x : T128.Idx) :
    SparseCore.gatherPayload hg g r x = g (ix2 (r (x 0) : Fin 130) (x 1 : Fin 128)) := by
  unfold SparseCore.gatherPayload
  refine congrArg g (funext fun b => ?_)
  match b with
  | ⟨0, _⟩ => exact Shape.Gathers.idx_axis hg r x
  | ⟨1, _⟩ => exact Fin.ext (Shape.Gathers.idx_of_ne hg r x 1 (by decide))

end Cert.Lookup

end
-- ==== Proof.PreRange.lean ====
/-
  The claim's precondition read back: it is the conjunction of two "for all entries" tests, each an `and`-reduction of an
  array of bits over both axes to one bit. The second says that every word of the batch is, as a signed number, at least 0
  and at most 127. A signed word that is at least 0 equals its unsigned value, so every word's unsigned value is at most 127.
  The first test (the table's entries are finite) is not needed here.
-/
import proofs.«206145_g82884278878518_cont_9to1_m_1113_2_alg».proof.Proof.Gen.Pre_input_domain
import Idealize.ShloMosaic.Lib.ReduceAll
import Idealize.ShloMosaic.Lib.ValueIdx

noncomputable section

namespace Cert.Proof

open Idealize.ShloMosaic

/-- A word that tests, signed, at least 0 and at most 127 has unsigned value at most 127: a signed word that is not
    negative reads the same signed and unsigned. -/
theorem word_le_of_tests (v : BitVec 32)
    (e : IntOp.andi (IntOp.cmpi .sge v 0#32) (IntOp.cmpi .sle v 127#32) = 1#1) : v.toNat ≤ 127 := by
  obtain ⟨h0, h1⟩ := IntOp.andi_eq_one.1 e
  rw [IntOp.cmpi_sge, show (0#32 : BitVec 32).toInt = 0 from by decide] at h0
  rw [IntOp.cmpi_sle, show (127#32 : BitVec 32).toInt = 127 from by decide] at h1
  rw [BitVec.toInt_eq_toNat_cond] at h0 h1
  split at h0 <;> omega

/-- The scalar shape has one index. -/
instance subsingleton_scalar_idx : Subsingleton Cert.Pre_input_domain.S_.Idx := ⟨fun a b => funext fun d => d.elim0⟩

/-- Under the claim's precondition every word of the batch has unsigned value at most 127. -/
theorem range_of_pre {F : FTy → Type} [FloatOps F] (idx : IVec Cert.Pre_input_domain.S4096x200 32)
    (tab : FVec F Cert.Pre_input_domain.S130x128 .f32)
    (h : Cert.Pre_input_domain.fn (F := F) idx tab = fun _ => 1#1) : ∀ j, (idx j).toNat ≤ 127 := by
  intro j
  have e := congrFun h ValueIdx.ix0
  dsimp only [Cert.Pre_input_domain.fn] at e
  have e2 := (IntOp.andi_eq_one.1 e).2
  have e3 := Host.reduce_andi_all _ _ _ _ _ e2 j
  exact word_le_of_tests _ e3

end Cert.Proof

end
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.RefRun.lean ====
/-
  The reference program's run. The reference is one call of an outlined function (a row lookup, "take along axis 0"),
  which itself calls an outlined select. Unfolding both calls, the program is a straight line of twenty-three host
  operations: wrap negative indices by the table's height, broadcast the indices to a trailing unit axis, test each
  against the range 0 … 129, gather the rows, and select the gathered row or a not-a-number constant by the range test.
  Its run from any memory therefore terminates with the result buffer at the composition of those operations'
  functions applied to the two argument arrays, and the arguments unchanged.
-/
import proofs.«206145_g82884278878518_cont_9to1_m_1113_2_alg».proof.Proof.Gen.ReferenceIdeal
import proofs.«206145_g82884278878518_cont_9to1_m_1113_2_alg».proof.Proof.LibTypedRef
import Idealize.ShloMosaic.Lib.StableHlo.Run
import Idealize.ShloMosaic.PureOps.Ideal

noncomputable section

namespace Cert.Proof.Ref

open Cert.ReferenceIdeal Cert.ReferenceIdeal.Gen Idealize.ShloMosaic Idealize.ShloMosaic.TcCoe Idealize.SL.Sem
  Idealize.ShloMosaic.StableHlo

/-- The program's operations in order, both calls unfolded: the lookup's twenty-two over the buffers of its call, the
    select it calls (the seventh) over the buffer of that inner call. -/
abbrev ops : List (HloOp τ sig (Elt Ideal)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 130#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 129#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S130x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant (F := Ideal) S_ .f32 0x7FC00000#32),
    TRef.unary main_call0.cst main_call0.v15 (broadcastInDim S4096x200x128 ![] bcast_S_S4096x200x128),
    TRef.ternary main_call0.v14 main_call0.v13 main_call0.v15 main_call0.v16 select ]

set_option maxRecDepth 1024 in
/-- The program is that straight line: the two functions' definitions unfolded at their calls, both sides are one
    chain of steps once sequencing is reassociated. -/
theorem main_eq (c : Dev nD) : main (F := Ideal) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt Ideal))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The indices with the negative ones wrapped by the table's height: \`idx + 130\` where \`idx < 0\`, else \`idx\`. -/
def wrapped (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 130#32))) idx

/-- The wrapped indices with a trailing unit axis: the gather's start indices. -/
def starts (idx : IVec S4096x200 32) : IVec S4096x200x1 32 :=
  broadcastInDim S4096x200x1 ![0, 1] bcast_S4096x200_S4096x200x1_0_1 (wrapped idx)

/-- Which wrapped indices lie in the table: \`0 ≤ i\` and \`i ≤ 129\`, the conjunction taken along the unit axis. -/
def inRange (idx : IVec S4096x200 32) : IVec S4096x200 1 :=
  Host.reduce IntOp.andi
    (andi (cmpi .sge (starts idx) (broadcastInDim S4096x200x1 ![] bcast_S_S4096x200x1 (constantI S_ 32 0#32)))
      (cmpi .sle (starts idx)
        (broadcastInDim S4096x200x1 ![0, 1, 2] bcast_S1x1x1_S4096x200x1_0_1_2
          (broadcastInDim S1x1x1 ![2] bcast_S1_S1x1x1_2 (constantI S1 32 129#32)))))
    (constantI S_ 1 1#1) reducesTo_S4096x200x1_S4096x200_d2 h_S_

/-- the reference's result as ONE pure term of its two argument arrays: the operations of the lookup composed -/
def refTerm (idx : IVec S4096x200 32) (tab : FVec Ideal S130x128 .f32) : FVec Ideal S4096x200x128 .f32 :=
  select (broadcastInDim S4096x200x128 ![0, 1] bcast_S4096x200_S4096x200x128_0_1 (inRange idx))
    (Host.gather gather_S130x128_S4096x200x1_S4096x200x128_2_0_n_n_0_2_1128 tab (starts idx))
    (broadcastInDim S4096x200x128 ![] bcast_S_S4096x200x128 (constant (F := Ideal) S_ .f32 0x7FC00000#32))

/-- A value stored in the result buffer through its typed reference is stored as it is: the buffer's type is the
    value's. -/
theorem toBuf_v0 (h1 h2 h3) (v : FVec Ideal S4096x200x128 .f32) :
    (TRef.of main_v0 h1 h2 h3 : TRef sig ⟨S4096x200x128, .f32⟩).toBuf (Val := Elt Ideal) v = v := rfl

attribute [local irreducible] Host.reduce Host.gather in
/-- What the result buffer holds after the line, from any contents: the operations' functions composed, applied to
    what the two argument buffers held. Each operation's result at its own buffer is its function's value at its
    operands' buffers, and every other buffer keeps what it held; a value stored through a typed reference and read
    back through it is the value, and the arguments' buffers have the arguments' types. -/
theorem out_eq (V : Valuation τ sig (Elt Ideal)) :
    after ops V (main_v0 : DevRef τ sig) = refTerm (V (main_arg0 : DevRef τ sig)) (V (main_arg1 : DevRef τ sig)) := by
  after_results_simp
  simp only [TRef.ofBuf_toBuf]
  rw [toBuf_v0]
  generalize h0 : (TRef.of main_arg0 _ _ _ : TRef sig ⟨S4096x200, .i32⟩).ofBuf (V (Proc.tc.devRef main_arg0)) = a0
  generalize h1 : (TRef.of main_arg1 _ _ _ : TRef sig ⟨S130x128, .f32⟩).ofBuf (V (Proc.tc.devRef main_arg1)) = a1
  have e0 : a0 = V (Proc.tc.devRef main_arg0) := h0.symm.trans rfl
  have e1 : a1 = V (Proc.tc.devRef main_arg1) := h1.symm.trans rfl
  show refTerm a0 a1 = _
  rw [e0, e1]

theorem arg0_eq (V : Valuation τ sig (Elt Ideal)) :
    after ops V (main_arg0 : DevRef τ sig) = V (main_arg0 : DevRef τ sig) := by
  after_results_simp

theorem arg1_eq (V : Valuation τ sig (Elt Ideal)) :
    after ops V (main_arg1 : DevRef τ sig) = V (main_arg1 : DevRef τ sig) := by
  after_results_simp

/-- From any memory with zero counters: every weakly fair execution of the reference terminates with the result buffer
    at `refTerm` of the two argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ c : Dev nD,
        r.2.mem ((c.tc : Thread nD τ).loc main_v0)
            = refTerm (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.LibEdgeGather.lean ====
/-
  Row gathers for edge lists grouped by label, read at an index.

  A list of E edges for each of L labels names, per edge, the node row it reads: start indices of shape [L, E, 1].
  Two gathers by such a list occur.  From one table of node rows [N, C], shared by all labels, result entry (l, e, q)
  is the table's entry (r, q), r the start index (l, e) read as a signed integer and clamped into [0, N - 1].  From a
  table per label [L, N, C], the label axis a batching axis of operand and start indices alike, result entry (l, e, q)
  is entry (l, r, q) of the tables with the same row r.  So gathering rows of per-label tables built from one shared
  table commutes with building them whenever row r of table l depends on row r of the shared table only.
  Everything is generic in the extents N, L, E, C and in the width of the index words.
-/
import Idealize.ShloMosaic.PureOps.Ideal
import Idealize.ShloMosaic.Lib.ValueIdx

noncomputable section

namespace Idealize.ShloMosaic.EdgeGather

open Idealize.ShloMosaic Idealize.ShloMosaic.ValueIdx

/-- A signed start index clamped into [0, N - 1]: the node row an edge reads. -/
def srcRow (N : Nat) (hN : 0 < N) {w : Nat} (v : BitVec w) : Fin N := ⟨min v.toInt.toNat (N - 1), by omega⟩

variable {α : Type}

/-! ## One shared table of rows -/

/-- The dimension numbers of x[idx] for x : [N, C], idx : [L, E, 1]: axis 0 collapsed and indexed, axis 1 an offset axis. -/
abbrev sharedDims (N L E C : Nat)
    (wf : GatherDims.WF ⟨2, ![N, C]⟩ ⟨3, ![L, E, 1]⟩ ⟨3, ![L, E, C]⟩ [2] [0] [] [0] [] 2 ![1, C]) :
    GatherDims ⟨2, ![N, C]⟩ ⟨3, ![L, E, 1]⟩ ⟨3, ![L, E, C]⟩ where
  offsetDims := [2]
  collapsedSliceDims := [0]
  operandBatchingDims := []
  startIndicesBatchingDims := []
  startIndexMap := [0]
  indexVectorDim := 2
  sliceSizes := ![1, C]
  wf := wf

/-- Result entry (l, e, q) of a gather from the shared table is the table at row srcRow idx[l, e, 0], column q. -/
theorem shared_apply {N L E C w : Nat} (hN : 0 < N)
    (wf : GatherDims.WF ⟨2, ![N, C]⟩ ⟨3, ![L, E, 1]⟩ ⟨3, ![L, E, C]⟩ [2] [0] [] [0] [] 2 ![1, C])
    (x : (⟨2, ![N, C]⟩ : Shape).Idx → α) (idx : IVec ⟨3, ![L, E, 1]⟩ w) (l : Fin L) (e : Fin E) (q : Fin C) :
    Host.gather (sharedDims N L E C wf) x idx (ix3 l e q) = x (ix2 (srcRow N hN (idx (ix3 l e (0 : Fin 1)))) q) := by
  unfold Host.gather
  congr 1
  funext a
  refine Fin.ext ?_
  match a with
  | ⟨0, _⟩ =>
    show (sharedDims N L E C wf).start (ix3 l e q) idx 0 + (sharedDims N L E C wf).batchCoord (ix3 l e q) 0
      + (sharedDims N L E C wf).offCoord (ix3 l e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (sharedDims N L E C wf).startIndexMap from List.mem_singleton.mpr rfl)]
    have hsi : (sharedDims N L E C wf).siIdx (ix3 l e q) ⟨List.idxOf (0 : Fin 2) (sharedDims N L E C wf).startIndexMap,
        List.idxOf_lt_length_iff.2 (List.mem_singleton.mpr rfl)⟩ = ix3 l e (0 : Fin 1) := by
      funext b; refine Fin.ext ?_
      match b with
      | ⟨0, _⟩ => rfl
      | ⟨1, _⟩ => rfl
      | ⟨2, _⟩ => rfl
    rw [hsi]
    rfl
  | ⟨1, _⟩ =>
    show (sharedDims N L E C wf).start (ix3 l e q) idx 1 + (sharedDims N L E C wf).batchCoord (ix3 l e q) 1
      + (sharedDims N L E C wf).offCoord (ix3 l e q) 1 = q.val
    rw [GatherDims.batchCoord_eq_zero _ _ _ List.not_mem_nil]
    have hs : (sharedDims N L E C wf).start (ix3 l e q) idx 1 = 0 := by
      unfold GatherDims.start
      rw [dif_neg (fun h => absurd (List.mem_singleton.mp h) (show ¬ ((1 : Fin 2) = 0) by decide))]
    rw [hs]
    simp only [Nat.add_zero, Nat.zero_add]
    rfl

/-! ## One table of rows per label -/

/-- The dimension numbers of the per-label x[l][idx[l]] for x : [L, N, C], idx : [L, E, 1]: axis 0 a batching axis of both,
    axis 1 collapsed and indexed, axis 2 an offset axis. -/
abbrev labelDims (N L E C : Nat)
    (wf : GatherDims.WF ⟨3, ![L, N, C]⟩ ⟨3, ![L, E, 1]⟩ ⟨3, ![L, E, C]⟩ [2] [1] [0] [1] [0] 2 ![1, 1, C]) :
    GatherDims ⟨3, ![L, N, C]⟩ ⟨3, ![L, E, 1]⟩ ⟨3, ![L, E, C]⟩ where
  offsetDims := [2]
  collapsedSliceDims := [1]
  operandBatchingDims := [0]
  startIndicesBatchingDims := [0]
  startIndexMap := [1]
  indexVectorDim := 2
  sliceSizes := ![1, 1, C]
  wf := wf

/-- Result entry (l, e, q) of a gather from per-label tables is table l at row srcRow idx[l, e, 0], column q. -/
theorem label_apply {N L E C w : Nat} (hN : 0 < N)
    (wf : GatherDims.WF ⟨3, ![L, N, C]⟩ ⟨3, ![L, E, 1]⟩ ⟨3, ![L, E, C]⟩ [2] [1] [0] [1] [0] 2 ![1, 1, C])
    (x : (⟨3, ![L, N, C]⟩ : Shape).Idx → α) (idx : IVec ⟨3, ![L, E, 1]⟩ w) (l : Fin L) (e : Fin E) (q : Fin C) :
    Host.gather (labelDims N L E C wf) x idx (ix3 l e q) = x (ix3 l (srcRow N hN (idx (ix3 l e (0 : Fin 1)))) q) := by
  unfold Host.gather
  congr 1
  funext a
  refine Fin.ext ?_
  match a with
  | ⟨0, _⟩ =>
    show (labelDims N L E C wf).start (ix3 l e q) idx 0 + (labelDims N L E C wf).batchCoord (ix3 l e q) 0
      + (labelDims N L E C wf).offCoord (ix3 l e q) 0 = l.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 3) ∈ (labelDims N L E C wf).operandBatchingDims from List.mem_singleton.mpr rfl)]
    rfl
  | ⟨1, _⟩ =>
    show (labelDims N L E C wf).start (ix3 l e q) idx 1 + (labelDims N L E C wf).batchCoord (ix3 l e q) 1
      + (labelDims N L E C wf).offCoord (ix3 l e q) 1 = _
    rw [GatherDims.batchCoord_eq_zero _ _ _ (fun h => absurd (List.mem_singleton.mp h) (show ¬ ((1 : Fin 3) = 0) by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (labelDims N L E C wf).startIndexMap from List.mem_singleton.mpr rfl)]
    have hsi : (labelDims N L E C wf).siIdx (ix3 l e q) ⟨List.idxOf (1 : Fin 3) (labelDims N L E C wf).startIndexMap,
        List.idxOf_lt_length_iff.2 (List.mem_singleton.mpr rfl)⟩ = ix3 l e (0 : Fin 1) := by
      funext b; refine Fin.ext ?_
      match b with
      | ⟨0, _⟩ => rfl
      | ⟨1, _⟩ => rfl
      | ⟨2, _⟩ => rfl
    rw [hsi]
    rfl
  | ⟨2, _⟩ =>
    show (labelDims N L E C wf).start (ix3 l e q) idx 2 + (labelDims N L E C wf).batchCoord (ix3 l e q) 2
      + (labelDims N L E C wf).offCoord (ix3 l e q) 2 = q.val
    rw [GatherDims.batchCoord_eq_zero _ _ _ (fun h => absurd (List.mem_singleton.mp h) (show ¬ ((2 : Fin 3) = 0) by decide))]
    have hs : (labelDims N L E C wf).start (ix3 l e q) idx 2 = 0 := by
      unfold GatherDims.start
      rw [dif_neg (fun h => absurd (List.mem_singleton.mp h) (show ¬ ((2 : Fin 3) = 1) by decide))]
    rw [hs]
    simp only [Nat.add_zero, Nat.zero_add]
    rfl

end Idealize.ShloMosaic.EdgeGather

end
-- ==== Proof.RefValue.lean ====
/-
  The reference's value under the claim's precondition. Every index word is at most 127 read unsigned, so read signed
  it is the same number, not negative: the wrap of negative indices leaves it alone, the range test 0 ≤ i ≤ 129
  passes, the not-a-number constant is never selected, and the gather reads the table's row of that number — the clamp
  into 0 … 129 leaves a number up to 127 alone too. So the result at (b, h, k) is the table at (idx (b, h), k): the
  lookup.
-/
import proofs.«206145_g82884278878518_cont_9to1_m_1113_2_alg».proof.Proof.RefRun
import proofs.«206145_g82884278878518_cont_9to1_m_1113_2_alg».proof.Proof.LookupSpec
import proofs.«206145_g82884278878518_cont_9to1_m_1113_2_alg».proof.Proof.LibEdgeGather
import Idealize.ShloMosaic.Lib.ValueIdx
import Idealize.ShloMosaic.Lib.Affine
import Idealize.ShloMosaic.Lib.Pipeline.Value
import Idealize.ShloMosaic.PureOps.Reduce

noncomputable section

namespace Cert.Proof.Ref

open Cert.ReferenceIdeal Cert.ReferenceIdeal.Gen Idealize.ShloMosaic Idealize.ShloMosaic.ValueIdx

/-- A word of unsigned value at most 127 read as a signed integer is that value. -/
theorem toInt_of_le {w : BitVec 32} (h : w.toNat ≤ 127) : w.toInt = (w.toNat : Int) :=
  BitVec.toInt_eq_toNat_of_lt (by omega)

/-- Such a word is not negative: "less than zero" is false of it. -/
theorem slt_zero_of_le {w : BitVec 32} (h : w.toNat ≤ 127) : IntOp.cmpi .slt w 0#32 = 0#1 :=
  eq_zero_of_ne_one fun e => by
    have h1 := IntOp.cmpi_slt.mp e
    rw [toInt_of_le h, show (0#32 : BitVec 32).toInt = 0 from by decide] at h1
    omega

/-- Such a word is at least zero. -/
theorem sge_zero_of_le {w : BitVec 32} (h : w.toNat ≤ 127) : IntOp.cmpi .sge w 0#32 = 1#1 :=
  IntOp.cmpi_sge.mpr (by rw [toInt_of_le h, show (0#32 : BitVec 32).toInt = 0 from by decide]; omega)

/-- Such a word is at most 129. -/
theorem sle_129_of_le {w : BitVec 32} (h : w.toNat ≤ 127) : IntOp.cmpi .sle w 129#32 = 1#1 :=
  IntOp.cmpi_sle.mpr (by rw [toInt_of_le h, show (129#32 : BitVec 32).toInt = 129 from by decide]; omega)

/-- A left fold by "and" from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self, show IntOp.andi 1#1 1#1 = 1#1 from by decide]
    exact foldl_andi_ones f l fun n hn => hl n (List.mem_cons_of_mem _ hn)

section Index

variable (idx : IVec S4096x200 32) (h : ∀ j, (idx j).toNat ≤ 127)
include h

/-- The wrap leaves every index alone: none is negative. -/
theorem wrapped_apply (i : S4096x200.Idx) : wrapped idx i = idx i := by
  show Scalar.select (IntOp.cmpi .slt (idx i) 0#32) _ (idx i) = idx i
  rw [slt_zero_of_le (h i), select_zero]

/-- The start index at (b, h, 0) is the index word at (b, h). -/
theorem starts_apply (b : Fin 4096) (hh : Fin 200) (z : Fin 1) : starts idx (ix3 b hh z) = idx (ix2 b hh) := by
  unfold starts
  rw [broadcastInDim_apply _ _ _ (ix3 b hh z) (ix2 b hh) (fun a => match a with | ⟨0, _⟩ => rfl | ⟨1, _⟩ => rfl)]
  exact wrapped_apply idx h _

/-- Every index passes the range test. -/
theorem inRange_apply (i : S4096x200.Idx) : inRange idx i = 1#1 := by
  unfold inRange
  rw [Host.reduce_eq_foldl]
  refine foldl_andi_ones _ _ fun n _ => ?_
  obtain ⟨b, hh, z, rfl⟩ : ∃ b hh z, n = ix3 b hh z := ⟨n 0, n 1, n 2, eq_ix3 n⟩
  show IntOp.andi (IntOp.cmpi .sge (starts idx (ix3 b hh z)) 0#32) (IntOp.cmpi .sle (starts idx (ix3 b hh z)) 129#32) = 1#1
  rw [starts_apply idx h, sge_zero_of_le (h _), sle_129_of_le (h _)]
  decide

end Index

/-- the reference's result is the lookup: at (b, h, k) the table's entry (idx (b, h), k) -/
theorem refTerm_eq_lookup (idx : IVec Cert.ReferenceIdeal.S4096x200 32) (tab : FVec Ideal Cert.ReferenceIdeal.S130x128 .f32)
    (h : ∀ j, (idx j).toNat ≤ 127) : refTerm idx tab = Cert.Lookup.lookup idx tab := by
  funext j
  obtain ⟨b, hh, k, rfl⟩ : ∃ b hh k, j = ix3 b hh k := ⟨j 0, j 1, j 2, eq_ix3 j⟩
  unfold refTerm
  rw [select_apply,
    broadcastInDim_apply _ _ _ (ix3 b hh k) (ix2 b hh) (fun a => match a with | ⟨0, _⟩ => rfl | ⟨1, _⟩ => rfl),
    inRange_apply idx h, select_one]
  show Host.gather (Idealize.ShloMosaic.EdgeGather.sharedDims 130 4096 200 128
      Cert.ReferenceIdeal.Gen.gather_S130x128_S4096x200x1_S4096x200x128_2_0_n_n_0_2_1128_wf) tab (starts idx) (ix3 b hh k) = _
  rw [Idealize.ShloMosaic.EdgeGather.shared_apply (by decide), starts_apply idx h]
  show tab (ix2 _ k) = tab (ix2 (Cert.Lookup.rowOf (idx (ix2 b hh))) k)
  rw [Cert.Lookup.rowOf_of_lt (show (idx (ix2 b hh)).toNat < 130 from by have := h (ix2 b hh); omega)]
  congr 2
  refine Fin.ext ?_
  show min (idx (ix2 b hh)).toInt.toNat (130 - 1) = (idx (ix2 b hh)).toNat
  rw [toInt_of_le (h _), Int.toNat_natCast]
  have := h (ix2 b hh)
  omega

end Cert.Proof.Ref

end
-- ==== Proof.KernelIdeal.Tiles.lean ====
/-
  The rows of the flat output each tile fills, as sets of indices. The output has 819200 rows of 128 numbers. The tile on
  SparseCore `c` (of 2), vector subcore `s` (of 16) owns the 25600 consecutive rows from `51200 s + 25600 c`, and fills them
  in 200 trips of 128 rows: trip `k` writes the rows from `51200 s + 25600 c + 128 k`. The thirty-two tiles' row ranges are
  pairwise disjoint and together are every row; within a tile, the rows written before trip `k` and trip `k`'s own rows
  are disjoint, and together are the rows written before trip `k + 1`.
-/
import proofs.«206145_g82884278878518_cont_9to1_m_1113_2_alg».proof.Defs
import proofs.«206145_g82884278878518_cont_9to1_m_1113_2_alg».proof.Proof.Gen.KernelIdeal
import proofs.«206145_g82884278878518_cont_9to1_m_1113_2_alg».proof.Proof.Gen.KernelIdeal.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The first row of the tile on SparseCore `c`, vector subcore `s`. -/
def base (c s : ℕ) : ℕ := 51200 * s + 25600 * c

/-- The tile's rows, every column. -/
def tileSet (c s : ℕ) : Finset S819200x128.Idx :=
  Finset.univ.filter fun x => base c s ≤ (x 0).val ∧ (x 0).val < base c s + 25600

/-- The rows the tile's first `k` trips write. -/
def doneSet (c s k : ℕ) : Finset S819200x128.Idx :=
  Finset.univ.filter fun x => base c s ≤ (x 0).val ∧ (x 0).val < base c s + 128 * k

theorem trips_eq : k0_t1_loop.trips = 200 := by decide

/-- The flat output as a vector subcore addresses it, and trip `k`'s 128 rows of it as the body slices them. -/
abbrev oV : Memref sig .scVector .hbm S819200x128 .f32 := Memref.whole main_v1_scv
abbrev oChunk (L : grid0.Coords) (k : Fin k0_t1_loop.trips) : Memref sig .scVector .hbm S128x128 .f32 :=
  (oV).slice (Rect.unit (s := S819200x128) (k0_off2 L k) S128x128.size (k0_off2_inb L k)) (fun _ => rfl)
/-- Trip `k`'s rows, as a set. -/
abbrev chunkSet (L : grid0.Coords) (k : Fin k0_t1_loop.trips) : Finset S819200x128.Idx := (oChunk L k).view.set

theorem mem_chunkSet (L : grid0.Coords) (k : Fin k0_t1_loop.trips) (x : S819200x128.Idx) :
    x ∈ chunkSet L k ↔ base (L 0).val (L 1).val + 128 * k.val ≤ (x 0).val ∧ (x 0).val < base (L 0).val (L 1).val + 128 * k.val + 128 := by
  show x ∈ ((View.whole (main_v1_scv : Ref sig .scVector)).slice (Rect.unit (s := S819200x128) (k0_off2 L k) S128x128.size (k0_off2_inb L k))).set ↔ _
  rw [View.set_slice_whole, Rect.mem_set_unit, k0_off2_eq]
  unfold base
  constructor
  · intro h
    have h0 := h 0
    simp only [Matrix.cons_val_zero] at h0
    have : S128x128.size 0 = 128 := rfl
    omega
  · intro h a
    match a with
    | ⟨0, _⟩ =>
      show 51200 * (L 1).val + 25600 * (L 0).val + 128 * k.val ≤ (x 0).val ∧ (x 0).val < 51200 * (L 1).val + 25600 * (L 0).val + 128 * k.val + 128
      omega
    | ⟨1, _⟩ =>
      show 0 ≤ (x 1).val ∧ (x 1).val < 0 + 128
      have := (x 1).isLt
      have e : S819200x128.size 1 = 128 := rfl
      omega

theorem mem_tileSet (c s : ℕ) (x : S819200x128.Idx) : x ∈ tileSet c s ↔ base c s ≤ (x 0).val ∧ (x 0).val < base c s + 25600 := by
  simp [tileSet]
theorem mem_doneSet (c s k : ℕ) (x : S819200x128.Idx) : x ∈ doneSet c s k ↔ base c s ≤ (x 0).val ∧ (x 0).val < base c s + 128 * k := by
  simp [doneSet]

theorem doneSet_zero (c s : ℕ) : doneSet c s 0 = ∅ := by
  ext x; simp only [mem_doneSet, Finset.notMem_empty, iff_false]; omega
theorem doneSet_all (c s : ℕ) : doneSet c s 200 = tileSet c s := by
  ext x; simp only [mem_doneSet, mem_tileSet]
theorem doneSet_sub (c s k : ℕ) (hk : k ≤ 200) : doneSet c s k ⊆ tileSet c s := by
  intro x; simp only [mem_doneSet, mem_tileSet]; omega

/-- Trip `k`'s rows are among the tile's rows not yet written, -/
theorem chunk_sub_todo (L : grid0.Coords) (k : Fin k0_t1_loop.trips) :
    chunkSet L k ⊆ tileSet (L 0).val (L 1).val \ doneSet (L 0).val (L 1).val k.val := by
  intro x hx
  have hk : k.val < 200 := trips_eq ▸ k.isLt
  rw [mem_chunkSet] at hx
  simp only [Finset.mem_sdiff, mem_tileSet, mem_doneSet]; omega
/-- taking them out leaves the rows not written after the trip, -/
theorem todo_succ (L : grid0.Coords) (k : Fin k0_t1_loop.trips) :
    (tileSet (L 0).val (L 1).val \ doneSet (L 0).val (L 1).val k.val) \ chunkSet L k
      = tileSet (L 0).val (L 1).val \ doneSet (L 0).val (L 1).val (k.val + 1) := by
  ext x
  have hk : k.val < 200 := trips_eq ▸ k.isLt
  simp only [Finset.mem_sdiff, mem_tileSet, mem_doneSet, mem_chunkSet]; omega
/-- they are disjoint from the rows written before, -/
theorem done_disjoint_chunk (L : grid0.Coords) (k : Fin k0_t1_loop.trips) :
    Disjoint (doneSet (L 0).val (L 1).val k.val) (chunkSet L k) := by
  rw [Finset.disjoint_left]; intro x h1 h2
  rw [mem_chunkSet] at h2; rw [mem_doneSet] at h1; omega
/-- and with them make the rows written after the trip. -/
theorem done_succ (L : grid0.Coords) (k : Fin k0_t1_loop.trips) :
    doneSet (L 0).val (L 1).val k.val ∪ chunkSet L k = doneSet (L 0).val (L 1).val (k.val + 1) := by
  ext x
  simp only [Finset.mem_union, mem_doneSet, mem_chunkSet]; omega

/-- Two different tiles' rows are disjoint. -/
theorem tileSet_disjoint {c s c' s' : ℕ} (hc : c < 2) (hc' : c' < 2) (h : (c, s) ≠ (c', s')) : Disjoint (tileSet c s) (tileSet c' s') := by
  rw [Finset.disjoint_left]; intro x h1 h2
  rw [mem_tileSet] at h1 h2; unfold base at h1 h2
  apply h
  have : c = c' ∧ s = s' := by omega
  rw [this.1, this.2]
/-- Every row is some tile's. -/
theorem tileSet_cover (x : S819200x128.Idx) : ∃ c s, c < 2 ∧ s < 16 ∧ x ∈ tileSet c s := by
  have hx : (x 0).val < 819200 := (x 0).isLt
  refine ⟨((x 0).val / 25600) % 2, (x 0).val / 51200, Nat.mod_lt _ (by decide), by omega, ?_⟩
  rw [mem_tileSet]; unfold base; omega

end Cert.Proof.KernelIdeal

end
-- ==== Proof.KernelIdeal.Pay.lean ====
/-
  What the one SparseCore call hands each processor and takes back. Three arrays are in play: the flat list of 819200
  words (the batch of words flattened row-major by the host before the call), the table, and the flat output of 819200 rows.
  Every tile READS the whole list and the whole table, so each holds a thirty-second share of both (the full share cut in two
  for the SparseCores, each half in sixteen for its tiles), and WRITES only its own 25600 rows of the output, which it holds
  outright. A SparseCore is handed its sixteen tiles' parts together. On the way back the output rows hold the lookup:
  row `r` is the table's row named by word `r` of the list.
-/
import proofs.«206145_g82884278878518_cont_9to1_m_1113_2_alg».proof.Defs
import proofs.«206145_g82884278878518_cont_9to1_m_1113_2_alg».proof.Proof.Gen.KernelIdeal
import proofs.«206145_g82884278878518_cont_9to1_m_1113_2_alg».proof.Proof.Gen.KernelIdeal.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.KernelIdeal.Tiles

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The batch of words, the table, the flat list, the flat output, the result. -/
abbrev iLoc (d : Dev nD) : Loc nD τ sig := (SparseCore.T d).loc main_arg0
abbrev xLoc (d : Dev nD) : Loc nD τ sig := (SparseCore.T d).loc main_arg1
abbrev fLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The flat list: the batch of words in row-major order. -/
def flatOf (d : Dev nD) : Buf (Elt F) (fLoc d) :=
  shapeCast S819200 (m (iLoc d) : S4096x200.Idx → Elt F .i32) Gen.shapeCasts_S4096x200_S819200

/-- The flat output once every tile is done: the lookup over the flat list. -/
def rowsG (d : Dev nD) : Buf (Elt F) (oLoc d) :=
  Cert.Lookup.rowsOf (flatOf m d) (m (xLoc d) : S130x128.Idx → Elt F .f32)

/-- The result: the flat output cut back into the batch. -/
def resG (d : Dev nD) : Buf (Elt F) (rLoc d) :=
  shapeCast S4096x200x128 (rowsG m d : S819200x128.Idx → Elt F .f32) Gen.shapeCasts_S819200x128_S4096x200x128

/-- The share of the list and of the table the tile on SparseCore `c`, vector subcore `s` holds. -/
def qT (c s : ℕ) : PosShare TreeShare :=
  pieceOf (pieceOf fullShare 2 (by decide) ⟨c % 2, Nat.mod_lt _ (by decide)⟩) 16 (by decide) ⟨s % 16, Nat.mod_lt _ (by decide)⟩

/-- What a tile is handed: its shares of the list and the table, its rows of the output as the launch left them; -/
def tileIn (d : Dev nD) (c s : ℕ) : sProp 𝕄 :=
  iprop((fLoc d ↦{qT c s} flatOf m d) ∗ (xLoc d ↦{qT c s} m (xLoc d)) ∗ oLoc d ↦[tileSet c s]{fullShare} m (oLoc d))
/-- and what it hands back: the same shares, its rows of the output holding the lookup. -/
def tileOut (d : Dev nD) (c s : ℕ) : sProp 𝕄 :=
  iprop((fLoc d ↦{qT c s} flatOf m d) ∗ (xLoc d ↦{qT c s} m (xLoc d)) ∗ oLoc d ↦[tileSet c s]{fullShare} rowsG m d)

instance tileIn_storable (d : Dev nD) (c s : ℕ) : BI.Storable (upEmb : UEmb _ 𝕄) (tileIn m d c s) := by
  unfold tileIn; infer_instance
instance tileOut_storable (d : Dev nD) (c s : ℕ) : BI.Storable (upEmb : UEmb _ 𝕄) (tileOut m d c s) := by
  unfold tileOut; infer_instance

/-- A SparseCore is handed its sixteen tiles' parts, and hands back theirs. -/
def P : (K (F := F)).Pay (nD := nD) (Val := Elt F) (Name := ℕ) (U := UU) where
  st := fun _ d c => bigSep Finset.univ fun s : Fin 16 => tileIn m d c.val s.val
  dn := fun _ d c => bigSep Finset.univ fun s : Fin 16 => tileOut m d c.val s.val
  go := fun _ d c i => tileIn m d c.val i.val
  td := fun _ d c i => tileOut m d c.val i.val
  x := fun _ _ => iprop(emp)

instance P_storable : (P (F := F) m).IsStorable where
  st _ d c := by unfold P; infer_instance
  dn _ d c := by unfold P; infer_instance
  go _ d c i := by unfold P; infer_instance
  td _ d c i := by unfold P; infer_instance

end Cert.Proof.KernelIdeal

end
-- ==== Proof.KernelIdeal.Main.lean ====
/-
  The TensorCore's side of the one SparseCore call, and the run of the whole program. The host flattens the batch of
  words, hands every tile a thirty-second share of the flat list and of the table and the tile's own 25600 rows of the
  flat output, takes all of it back with the output rows holding the lookup, and cuts the flat output back into the
  batch's shape. The thirty-two shares of an array add up to the whole share, and the thirty-two row ranges are pairwise
  disjoint and cover every row, so "the three arrays held whole" and "every tile's part" are the same assertion, whatever
  the arrays hold: read one way it hands the parts out, the other way it gathers them in.
-/
import proofs.«206145_g82884278878518_cont_9to1_m_1113_2_alg».proof.Proof.KernelIdeal.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The thirty-two parts of the three arrays -/

/-- For a SparseCore and a vector subcore in range, the tile's share is the piece the two cuts name. -/
theorem qT_eq (c : Fin 2) (s : Fin 16) :
    qT c.val s.val = pieceOf (pieceOf fullShare 2 (by decide) c) 16 (by decide) s := by
  unfold qT
  have hc : (⟨c.val % 2, Nat.mod_lt _ (by decide)⟩ : Fin 2) = c := Fin.ext (Nat.mod_eq_of_lt c.isLt)
  have hs : (⟨s.val % 16, Nat.mod_lt _ (by decide)⟩ : Fin 16) = s := Fin.ext (Nat.mod_eq_of_lt s.isLt)
  rw [hc, hs]

/-- An array held whole is held at the thirty-two tiles' shares at once. -/
theorem shares_split {ℓ : Loc nD τ sig} (f : Buf (Elt F) ℓ) :
    (ℓ ↦{fullShare} f : sProp 𝕄) = bigSep Finset.univ fun c : Fin 2 => bigSep Finset.univ fun s : Fin 16 => ℓ ↦{qT c.val s.val} f := by
  rw [pointsTo_piecesOf Finset.univ f (o := 2) (by decide) fullShare]
  refine bigSep_congr fun c _ => ?_
  rw [pointsTo_piecesOf Finset.univ f (o := 16) (by decide) (pieceOf fullShare 2 (by decide) c)]
  refine bigSep_congr fun s _ => ?_
  rw [qT_eq]

/-- The tiles' row ranges, indexed by the pair (SparseCore, vector subcore). -/
def pairSet (p : Fin 2 × Fin 16) : Finset S819200x128.Idx := tileSet p.1.val p.2.val

theorem pairSet_disjoint : ∀ p ∈ (Finset.univ : Finset (Fin 2 × Fin 16)), ∀ p' ∈ (Finset.univ : Finset (Fin 2 × Fin 16)),
    p ≠ p' → Disjoint (pairSet p) (pairSet p') := fun p _ p' _ h =>
  tileSet_disjoint p.1.isLt p'.1.isLt fun e =>
    h (Prod.ext (Fin.ext (Prod.mk.inj e).1) (Fin.ext (Prod.mk.inj e).2))

theorem pairSet_cover : (Finset.univ : Finset (Fin 2 × Fin 16)).biUnion pairSet = Finset.univ := by
  ext x
  simp only [Finset.mem_biUnion, Finset.mem_univ, true_and, iff_true]
  obtain ⟨c, s, hc, hs, hx⟩ := tileSet_cover x
  exact ⟨(⟨c, hc⟩, ⟨s, hs⟩), hx⟩

/-- The flat output held whole is every tile's rows of it held at once. -/
theorem rows_split (d : Dev nD) (f : Buf (Elt F) (oLoc d)) :
    (oLoc d ↦{fullShare} f : sProp 𝕄)
      = bigSep Finset.univ fun c : Fin 2 => bigSep Finset.univ fun s : Fin 16 => oLoc d ↦[tileSet c.val s.val]{fullShare} f := by
  have h := pointsTo_biUnion (ℓ := oLoc d) (q := fullShare) (f := f) (Ix := HIx 1) (Name := ℕ) (U := UU) (Lvl := ℕ)
    (Finset.univ : Finset (Fin 2 × Fin 16)) pairSet pairSet_disjoint
  rw [pairSet_cover] at h
  rw [h, ← Finset.univ_product_univ, SparseCore.bigSep_product]
  rfl

/-- The three arrays held whole are the thirty-two tiles' parts, whatever the arrays hold. -/
theorem parts_eq (d : Dev nD) (ff : Buf (Elt F) (fLoc d)) (ft : Buf (Elt F) (xLoc d)) (fo : Buf (Elt F) (oLoc d)) :
    (iprop((fLoc d ↦{fullShare} ff) ∗ (xLoc d ↦{fullShare} ft) ∗ oLoc d ↦{fullShare} fo) : sProp 𝕄)
      = bigSep Finset.univ fun c : Fin 2 => bigSep Finset.univ fun s : Fin 16 =>
          iprop((fLoc d ↦{qT c.val s.val} ff) ∗ (xLoc d ↦{qT c.val s.val} ft) ∗ oLoc d ↦[tileSet c.val s.val]{fullShare} fo) := by
  rw [shares_split ff, shares_split ft, rows_split d fo, ← bigSep_sep', ← bigSep_sep']
  refine bigSep_congr fun c _ => ?_
  rw [← bigSep_sep', ← bigSep_sep']

/-! ## The launch element of the ghost state -/

variable [FloatOps F]

def u₀ : UU := (initOf (K (F := F)).hsCells (K (F := F)).hsToks, 1)

theorem bigSep_emp' {I : Type} (s : Finset I) : (bigSep s fun _ => iprop(emp)) = (iprop(emp) : sProp 𝕄) := bigSep_emp_const s

variable (m : (ℓ : Loc nD τ sig) → Buf (Elt F) ℓ) (ρ : Dev nD → PrngReg)

/-- The kernel only makes local copies and waits for them: the counters are dropped, no call consumes anything. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the call takes and hands back -/

theorem st_eq (d : Dev nD) (c : Fin 2) : (P m).st 0 d c = bigSep Finset.univ fun s : Fin 16 => tileIn m d c.val s.val := by
  unfold P; rfl
theorem dn_eq (d : Dev nD) (c : Fin 2) : (P m).dn 0 d c = bigSep Finset.univ fun s : Fin 16 => tileOut m d c.val s.val := by
  unfold P; rfl

/-- The call takes the flat list, the table and the flat output whole, -/
theorem st0_eq (d : Dev nD) : (bigSep Finset.univ fun c : Fin ((K (F := F)).nCore 0) => (P m).st 0 d c)
    = iprop((fLoc d ↦{fullShare} flatOf m d) ∗ (xLoc d ↦{fullShare} m (xLoc d)) ∗ oLoc d ↦{fullShare} m (oLoc d)) := by
  show (bigSep (Finset.univ : Finset (Fin 2)) fun c => (P m).st 0 d c) = _
  rw [parts_eq]
  refine bigSep_congr fun c _ => ?_
  rw [st_eq]
  refine bigSep_congr fun s _ => ?_
  unfold tileIn; rfl
/-- and hands them back whole, the flat output holding the lookup. -/
theorem dn0_eq (d : Dev nD) : (bigSep Finset.univ fun c : Fin ((K (F := F)).nCore 0) => (P m).dn 0 d c)
    = iprop((fLoc d ↦{fullShare} flatOf m d) ∗ (xLoc d ↦{fullShare} m (xLoc d)) ∗ oLoc d ↦{fullShare} rowsG m d) := by
  show (bigSep (Finset.univ : Finset (Fin 2)) fun c => (P m).dn 0 d c) = _
  rw [parts_eq]
  refine bigSep_congr fun c _ => ?_
  rw [dn_eq]
  refine bigSep_congr fun s _ => ?_
  unfold tileOut; rfl

/-! ## The TensorCore's arrays -/

abbrev i' : DevRef τ sig := Proc.devRef .tc (main_arg0 : Ref sig .tc)
abbrev x' : DevRef τ sig := Proc.devRef .tc (main_arg1 : Ref sig .tc)
abbrev f' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The host's two operations: the batch of words flattened, the flat output cut back into the batch. -/
abbrev opFlat : HloOp τ sig (Elt F) := StableHlo.reshape main_arg0 main_v0 rfl shapeCasts_S4096x200_S819200
abbrev opBack : HloOp τ sig (Elt F) := StableHlo.reshape main_v1 main_v2 rfl shapeCasts_S819200x128_S4096x200x128

/-- The TensorCore's arrays, all unscoped: the batch of words, the table, the flat list, the flat output, the result. -/
abbrev S5 : Finset (DevRef τ sig) := {i', x', f', o', r'}

theorem held_S5 (d : Dev nD) (W : Valuation τ sig (Elt F)) :
    (held (T d) S5 W : sProp 𝕄)
      = iprop((iLoc d ↦{fullShare} W i') ∗ (xLoc d ↦{fullShare} W x') ∗ (fLoc d ↦{fullShare} W f')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (fLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- What the arrays hold: at the launch; once the words are flattened; once the call is back, the flat output holding
    the lookup; once the flat output is cut back into the batch. -/
def V0 (d : Dev nD) : Valuation τ sig (Elt F) := fun b => m (d, b)
def V1 (d : Dev nD) : Valuation τ sig (Elt F) := (opFlat (F := F)).result (V0 m d)
def V2 (d : Dev nD) : Valuation τ sig (Elt F) := Function.update (V1 m d) o' (rowsG m d)
def V3 (d : Dev nD) : Valuation τ sig (Elt F) := (opBack (F := F)).result (V2 m d)

theorem unscoped_held (d : Dev nD) : (unscopedBufs d (fun b => m ((SparseCore.T d).loc b)) : sProp 𝕄) = held (T d) S5 (V0 m d) := by
  rw [unscopedBufs_eq, held_S5]; rfl

theorem V1_i (d : Dev nD) : V1 m d i' = m (iLoc d) := by
  unfold V1; rw [(opFlat (F := F)).result_of_not_mem _ (show i' ∉ ({f'} : Finset (DevRef τ sig)) by decide)]; rfl
theorem V1_x (d : Dev nD) : V1 m d x' = m (xLoc d) := by
  unfold V1; rw [(opFlat (F := F)).result_of_not_mem _ (show x' ∉ ({f'} : Finset (DevRef τ sig)) by decide)]; rfl
theorem V1_o (d : Dev nD) : V1 m d o' = m (oLoc d) := by
  unfold V1; rw [(opFlat (F := F)).result_of_not_mem _ (show o' ∉ ({f'} : Finset (DevRef τ sig)) by decide)]; rfl
theorem V1_r (d : Dev nD) : V1 m d r' = m (rLoc d) := by
  unfold V1; rw [(opFlat (F := F)).result_of_not_mem _ (show r' ∉ ({f'} : Finset (DevRef τ sig)) by decide)]; rfl
/-- The flat list is the batch of words in row-major order. -/
theorem V1_f (d : Dev nD) : V1 m d f' = flatOf m d := by
  unfold V1 flatOf
  rw [StableHlo.reshape_result]; rfl

theorem V2_i (d : Dev nD) : V2 m d i' = m (iLoc d) := (Function.update_of_ne (show i' ≠ o' by decide) _ _).trans (V1_i m d)
theorem V2_x (d : Dev nD) : V2 m d x' = m (xLoc d) := (Function.update_of_ne (show x' ≠ o' by decide) _ _).trans (V1_x m d)
theorem V2_f (d : Dev nD) : V2 m d f' = flatOf m d := (Function.update_of_ne (show f' ≠ o' by decide) _ _).trans (V1_f m d)
theorem V2_o (d : Dev nD) : V2 m d o' = rowsG m d := Function.update_self _ _ _
theorem V2_r (d : Dev nD) : V2 m d r' = m (rLoc d) := (Function.update_of_ne (show r' ≠ o' by decide) _ _).trans (V1_r m d)

theorem V3_i (d : Dev nD) : V3 m d i' = m (iLoc d) := by
  unfold V3; rw [(opBack (F := F)).result_of_not_mem _ (show i' ∉ ({r'} : Finset (DevRef τ sig)) by decide), V2_i]
theorem V3_x (d : Dev nD) : V3 m d x' = m (xLoc d) := by
  unfold V3; rw [(opBack (F := F)).result_of_not_mem _ (show x' ∉ ({r'} : Finset (DevRef τ sig)) by decide), V2_x]
/-- The result is the flat output, the lookup, cut back into the batch. -/
theorem V3_r (d : Dev nD) : V3 m d r' = resG m d := by
  unfold V3 resG
  rw [StableHlo.reshape_result, V2_o]; rfl

theorem held_V1 (d : Dev nD) :
    (held (T d) S5 ((opFlat (F := F)).result (V0 m d)) : sProp 𝕄)
      = iprop((iLoc d ↦{fullShare} m (iLoc d)) ∗ (xLoc d ↦{fullShare} m (xLoc d)) ∗ (fLoc d ↦{fullShare} flatOf m d)
          ∗ (oLoc d ↦{fullShare} m (oLoc d)) ∗ rLoc d ↦{fullShare} m (rLoc d)) := by
  show held (SparseCore.T d) S5 (V1 m d) = _
  rw [held_S5, V1_i, V1_x, V1_f, V1_o, V1_r]
theorem held_V3 (d : Dev nD) :
    (held (T d) S5 ((opBack (F := F)).result (V2 m d)) : sProp 𝕄)
      = iprop((iLoc d ↦{fullShare} m (iLoc d)) ∗ (xLoc d ↦{fullShare} m (xLoc d)) ∗ (fLoc d ↦{fullShare} V3 m d f')
          ∗ (oLoc d ↦{fullShare} V3 m d o') ∗ rLoc d ↦{fullShare} resG m d) := by
  show held (SparseCore.T d) S5 (V3 m d) = _
  rw [held_S5, V3_i, V3_x, V3_r]

theorem hFlat : (opFlat (F := F)).bufs ⊆ S5 := show ({i', f'} : Finset (DevRef τ sig)) ⊆ S5 by decide
theorem hBack : (opBack (F := F)).bufs ⊆ S5 := show ({o', r'} : Finset (DevRef τ sig)) ⊆ S5 by decide

/-! ## @main on the TensorCore -/

/-- What @main leaves the claim: the batch of words and the table at their launch contents, the result holding the
    lookup cut into the batch's shape. -/
abbrev FIN (d : Dev nD) : sProp 𝕄 :=
  iprop((iLoc d ↦{fullShare} m (iLoc d)) ∗ (xLoc d ↦{fullShare} m (xLoc d)) ∗ rLoc d ↦{fullShare} resG m d)

/-- @main on device `d`'s TensorCore: the words flattened (a host operation over the five arrays held whole), the call
    (every tile's part handed out of the flat list, the table and the flat output held whole, and gathered back in with
    the output rows holding the lookup), the flat output cut back into the batch (a host operation again). -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the words flattened
  iapply (wp_hlo_within 𝒱 (SparseCore.T d) none Set.univ (op := opFlat) (S := S5) hFlat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hi, Hx, Hf, Ho, Hr⟩
  -- the call: the flat list, the table and the flat output to the two SparseCores and back
  iapply ((K (F := F)).wp_run (D (F := F)) 𝒱 (EH := EH) (P := P m) κ d 0) $$ [Hst Hi Hx Hf Ho Hr Hb]
  isplitr; · iexact Hctx
  isplitl [Hst]; · iexact Hst
  isplitl [Hf Hx Ho]
  · rw [st0_eq]
    isplitl [Hf]; · iexact Hf
    isplitl [Hx]; · iexact Hx
    iexact Ho
  iintro ⟨Hst, Hdn⟩
  ihave Hdn' := (Entails.of_eq (dn0_eq m d)) $$ Hdn
  icases Hdn' with ⟨Hf, Hx, Ho⟩
  -- the flat output cut back into the batch
  iapply (wp_hlo_within 𝒱 (SparseCore.T d) none Set.univ (op := opBack) (S := S5) hBack (V := V2 m d)) $$ [Hb Hi Hx Hf Ho Hr]
  · isplitl [Hb]; · iexact Hb
    rw [held_S5, V2_i, V2_x, V2_f, V2_o, V2_r]
    isplitl [Hi]; · iexact Hi
    isplitl [Hx]; · iexact Hx
    isplitl [Hf]; · iexact Hf
    isplitl [Ho]; · iexact Ho
    iexact Hr
  iintro ⟨Hb, Hheld⟩
  ihave Hh := (Entails.of_eq (held_V3 (F := F) m d)) $$ Hheld
  icases Hh with ⟨Hi, Hx, -, -, Hr⟩
  rw [wp_ret]; imodintro; imodintro
  isplitl [Hst]; · iexact Hst
  isplitl [Hi]; · iexact Hi
  isplitl [Hx]; · iexact Hx
  iexact Hr

/-- What the final memory must read on device `d`. -/
def fq (d : Dev nD) (s' : Phys nD τ sig (Elt F)) : Prop :=
  s'.mem.mem (rLoc d) = resG m d ∧ s'.mem.mem (iLoc d) = m (iLoc d) ∧ s'.mem.mem (xLoc d) = m (xLoc d)

set_option maxRecDepth 16384 in
/-- An array held whole at some contents is at those contents in the memory. -/
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := resG m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the thirty-five threads from the launch memory ends, and ends with the result holding
    the lookup cut into the batch's shape, the batch of words and the table as they were: given the proof of one tile's
    task and of how a SparseCore's part splits among its tiles. -/
theorem run_of [∀ e, Nonempty (Elt F e)] (m : (ℓ : Loc nD τ sig) → Buf (Elt F) ℓ) (ρ : Dev nD → PrngReg)
    (hT : (K (F := F)).TileObl (D (F := F)) 𝒱 (P m) v₀ 0) (hS : (K (F := F)).VecSplit' (P m) 0) :
    θ_run (Cert.KernelIdeal.defs (F := F)) (Cert.KernelIdeal.threads (F := F)) ⟨m, fun _ => 0, ρ⟩
      (fun r => ∀ c : Dev nD, r.2.mem (rLoc c) = resG m c ∧ r.2.mem (iLoc c) = m (iLoc c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain hS)
    m ρ main (fun _ => iprop(emp)) (FIN m) (u₀ (F := F)) (sep_elim_left.trans (hu₀ m)) (hmain m ρ) (fq m) (hfin m)
    (fun r => ∀ c : Dev nD, r.2.mem (rLoc c) = resG m c ∧ r.2.mem (iLoc c) = m (iLoc c) ∧ r.2.mem (xLoc c) = m (xLoc c))
    (fun _ h => h)

end Cert.Proof.KernelIdeal

end
-- ==== Proof.KernelIdeal.ChunkValue.lean ====
/-
  What one trip of a tile's loop leaves in its 128 rows of the flat output. Trip `k` of the tile at grid place `L` copies
  the 128 words of the flat list from position `off = 51200 (L 1) + 25600 (L 0) + 128 k` into the tile's list buffer;
  gathers, for each of those words, the table's row it names into the tile's 128 x 128 row buffer; and copies the row buffer
  to rows `off ..` of the flat output. Each copy writes the destination with what the source reads. Read at row `off + i`,
  column `j`, the output therefore holds the row buffer's entry `(i, j)`, which is the table at the row named by word `i`
  of the list buffer, column `j`; word `i` of the list buffer is word `off + i` of the flat list. So on the trip's rows the
  output holds the lookup over the flat list.
-/
import proofs.«206145_g82884278878518_cont_9to1_m_1113_2_alg».proof.Defs
import proofs.«206145_g82884278878518_cont_9to1_m_1113_2_alg».proof.Proof.Gen.KernelIdeal
import proofs.«206145_g82884278878518_cont_9to1_m_1113_2_alg».proof.Proof.Gen.KernelIdeal.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.KernelIdeal.Pay
import proofs.«206145_g82884278878518_cont_9to1_m_1113_2_alg».proof.Proof.LookupLaws

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "fV" => (Memref.whole Cert.KernelIdeal.main_v0_scv : Memref Cert.KernelIdeal.sig Kind.scVector Space.hbm Cert.KernelIdeal.S819200 EltTy.i32)
local notation "xV" => (Memref.whole Cert.KernelIdeal.main_arg1_scv : Memref Cert.KernelIdeal.sig Kind.scVector Space.hbm Cert.KernelIdeal.S130x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-- Trip `k`'s 128 words of the flat list, and the whole table, as the body slices them. -/
abbrev iChunk' (L : grid0.Coords) (k : Fin k0_t1_loop.trips) : Memref sig .scVector .hbm S128 .i32 :=
  (fV).slice (Rect.unit (s := S819200) (k0_off1 L k) S128.size (k0_off1_inb L k)) (fun _ => rfl)
abbrev xAll' : Memref sig .scVector .hbm S130x128 .f32 :=
  (xV).slice (Rect.unit (s := S130x128) ![0, 0] S130x128.size inb_S130x128_S130x128_0_0) (fun _ => rfl)

/-- The first row of trip `k` of the tile at `L`. -/
abbrev off (L : grid0.Coords) (k : Fin k0_t1_loop.trips) : ℕ := 51200 * (L 1).val + 25600 * (L 0).val + 128 * k.val

/-- A row of the trip's block of the output, placed in the output: row `off + i`, same column. -/
theorem oChunk_emb_val0 (L : grid0.Coords) (k : Fin k0_t1_loop.trips) (y : S128x128.Idx) :
    (((oChunk L k).view.emb y) 0).val = off L k + (y 0).val := by
  show (k0_off2 L k) 0 + 1 * (y 0).val = _
  rw [k0_off2_eq]
  show off L k + 1 * (y 0).val = _
  omega
theorem oChunk_emb_val1 (L : grid0.Coords) (k : Fin k0_t1_loop.trips) (y : S128x128.Idx) :
    (((oChunk L k).view.emb y) 1).val = (y 1).val := by
  show (k0_off2 L k) 1 + 1 * (y 1).val = _
  rw [k0_off2_eq]
  show 0 + 1 * (y 1).val = _
  omega

/-- A word of the trip's block of the flat list, placed in the list: position `off + i`. -/
theorem iChunk_emb_val0 (L : grid0.Coords) (k : Fin k0_t1_loop.trips) (p : S128.Idx) :
    (((iChunk' L k).view.emb p) 0).val = off L k + (p 0).val := by
  show (k0_off1 L k) 0 + 1 * (p 0).val = _
  rw [k0_off1_eq]
  show off L k + 1 * (p 0).val = _
  omega

/-- Every index of the trip's rows is a place of the trip's block. -/
theorem exists_of_mem_chunkSet (L : grid0.Coords) (k : Fin k0_t1_loop.trips) {x : S819200x128.Idx} (hx : x ∈ chunkSet L k) :
    ∃ y : S128x128.Idx, (oChunk L k).view.emb y = x := by
  obtain ⟨y, -, hy⟩ := Finset.mem_map.mp hx
  exact ⟨y, hy⟩

/-- Writing the trip's block of the output with `w` leaves `w y` at the place of `y`. -/
theorem write_oChunk_emb (L : grid0.Coords) (k : Fin k0_t1_loop.trips) (fo : S819200x128.Idx → Elt F .f32)
    (w : S128x128.Idx → Elt F .f32) (y : S128x128.Idx) :
    View.write (Elt F) (oChunk L k).view fo w Finset.univ ((oChunk L k).view.emb y) = w y :=
  (View.write_emb_of_mem (v := (oChunk L k).view) fo w (Finset.mem_univ y)).trans (cast_eq _ _)

/-- The trip's block of the flat list reads the list at its places. -/
theorem read_iChunk (L : grid0.Coords) (k : Fin k0_t1_loop.trips) (flat : S819200.Idx → Elt F .i32) (p : S128.Idx) :
    (iChunk' L k).view.read (Elt F) flat p = flat ((iChunk' L k).view.emb p) :=
  (View.read_apply _ _).trans (cast_eq _ _)

/-- The table sliced whole reads as the table. -/
theorem read_xAll (tab : S130x128.Idx → Elt F .f32) (z : S130x128.Idx) : (xAll').view.read (Elt F) tab z = tab z := by
  refine ((View.read_apply _ _).trans (cast_eq _ _)).trans (congrArg tab (funext fun a => Fin.ext ?_))
  match a with
  | ⟨0, _⟩ => show 0 + 1 * (z 0).val = (z 0).val; omega
  | ⟨1, _⟩ => show 0 + 1 * (z 1).val = (z 1).val; omega

/-- A position of a list of 128, as an index: the index whose one coordinate is the position. -/
theorem rowMajor_symm_S128 (q : Fin S128.numel) : ((S128.rowMajor.symm q) 0).val = q.val := by
  have h := Shape.rowMajor_val_one (d := ![128]) (S128.rowMajor.symm q)
  rw [← h]
  exact congrArg Fin.val (Equiv.apply_symm_apply S128.rowMajor q)

/-- Writing the trip's block of the output, as one piece that is the whole block, with `w` leaves `w y` at the place
    of `y`. -/
theorem writes_whole_oChunk_emb (L : grid0.Coords) (k : Fin k0_t1_loop.trips) (fo : S819200x128.Idx → Elt F .f32)
    (w : S128x128.Idx → Elt F .f32) (y : S128x128.Idx) :
    (oChunk L k).view.writes (Elt F) fo [⟨Rect.whole S128x128, w⟩] ((oChunk L k).view.emb y) = w y := by
  have hy : ((oChunk L k).view.slice (Rect.whole S128x128)).emb y = (oChunk L k).view.emb y :=
    congrArg (oChunk L k).view.emb (Rect.emb_whole_apply S128x128 y)
  rw [← hy]
  exact (View.write_emb_of_mem (v := (oChunk L k).view.slice (Rect.whole S128x128)) fo w (Finset.mem_univ y)).trans (cast_eq _ _)

/-- The row buffer written as one piece that is all of it reads as the payload. -/
theorem read_writes_whole_rV (fr : S128x128.Idx → Elt F .f32) (w : S128x128.Idx → Elt F .f32) :
    (rV).view.read (Elt F) ((rV).view.writes (Elt F) fr [⟨Rect.whole cc0_scratch1.ty.shape, w⟩]) = w := by
  funext y
  have h := View.read_writes_cons_emb (rV).view fr (Rect.whole cc0_scratch1.ty.shape) w [] y
  rw [Rect.emb_whole_apply] at h
  exact h

/-- The list buffer after the first copy, read at a word: the flat list at the word's place. -/
theorem listWord (L : grid0.Coords) (k : Fin k0_t1_loop.trips) (flat : S819200.Idx → Elt F .i32) (fs : S128.Idx → Elt F .i32)
    (q : S128.Idx) :
    (sV).view.read (Elt F) (View.write (Elt F) (sV).view fs (ReadAs.same.apply ((iChunk' L k).view.read (Elt F) flat)) Finset.univ) q
      = flat ((iChunk' L k).view.emb q) := by
  rw [View.read_write_univ]; exact read_iChunk L k flat q

/-- The place in the flat list of the word the gather uses for the block's row `y 0` is the flat position of that row of
    the output. -/
theorem iChunk_emb_rowMajor_symm (L : grid0.Coords) (k : Fin k0_t1_loop.trips) (y : S128x128.Idx)
    (hn : S128.numel = S128x128.size (gathers_S130x128_S128x128).axis') :
    (iChunk' L k).view.emb (S128.rowMajor.symm ((y 0).cast hn.symm))
      = ix1 (((oChunk L k).view.emb y) 0 : Fin 819200) := by
  funext a
  match a with
  | ⟨0, _⟩ =>
    apply Fin.ext
    show (((iChunk' L k).view.emb (S128.rowMajor.symm ((y 0).cast hn.symm))) 0).val = (((oChunk L k).view.emb y) 0).val
    rw [iChunk_emb_val0, rowMajor_symm_S128, oChunk_emb_val0]
    rfl

/-- The row of the table the gather reads for the block's row `y 0`: the row named by the flat list's word at that row's
    flat position. -/
theorem rows_eq_rowOf (L : grid0.Coords) (k : Fin k0_t1_loop.trips) (flat : S819200.Idx → Elt F .i32) (fs : S128.Idx → Elt F .i32)
    (hn : S128.numel = S128x128.size (gathers_S130x128_S128x128).axis')
    (hin : ∀ x, ((sV).view.read (Elt F) (View.write (Elt F) (sV).view fs (ReadAs.same.apply ((iChunk' L k).view.read (Elt F) flat)) Finset.univ) x).toNat
      < S130x128.size (gathers_S130x128_S128x128).axis) (y : S128x128.Idx) :
    SparseCore.rows ((sV).view.read (Elt F) (View.write (Elt F) (sV).view fs (ReadAs.same.apply ((iChunk' L k).view.read (Elt F) flat)) Finset.univ)) hn hin (y 0)
      = Cert.Lookup.rowOf (flat (ix1 (((oChunk L k).view.emb y) 0 : Fin 819200))) := by
  have e : (sV).view.read (Elt F) (View.write (Elt F) (sV).view fs (ReadAs.same.apply ((iChunk' L k).view.read (Elt F) flat)) Finset.univ)
        (S128.rowMajor.symm ((y 0).cast hn.symm))
      = flat (ix1 (((oChunk L k).view.emb y) 0 : Fin 819200)) :=
    (listWord L k flat fs _).trans (congrArg flat (iChunk_emb_rowMajor_symm L k y hn))
  have h1 : (flat (ix1 (((oChunk L k).view.emb y) 0 : Fin 819200))).toNat < 130 := by
    have h := hin (S128.rowMajor.symm ((y 0).cast hn.symm))
    rw [e] at h
    exact h
  apply Fin.ext
  show ((sV).view.read (Elt F) (View.write (Elt F) (sV).view fs (ReadAs.same.apply ((iChunk' L k).view.read (Elt F) flat)) Finset.univ)
      (S128.rowMajor.symm ((y 0).cast hn.symm))).toNat
    = (flat (ix1 (((oChunk L k).view.emb y) 0 : Fin 819200))).toNat % 130
  rw [e]
  exact (Nat.mod_eq_of_lt h1).symm

/-- What trip `k` leaves on its rows: the lookup over the flat list. -/
theorem chunk_value (L : grid0.Coords) (k : Fin k0_t1_loop.trips)
    (flat : S819200.Idx → Elt F .i32) (tab : S130x128.Idx → Elt F .f32) (fo : S819200x128.Idx → Elt F .f32)
    (fs : S128.Idx → Elt F .i32) (fr : S128x128.Idx → Elt F .f32)
    (hn : S128.numel = S128x128.size (gathers_S130x128_S128x128).axis')
    (hin : ∀ x, ((sV).view.read (Elt F) (View.write (Elt F) (sV).view fs (ReadAs.same.apply ((iChunk' L k).view.read (Elt F) flat)) Finset.univ) x).toNat
      < S130x128.size (gathers_S130x128_S128x128).axis) :
    ∀ x ∈ chunkSet L k,
      (oChunk L k).view.writes (Elt F) fo
        [⟨Rect.whole S128x128,
          ReadAs.same.apply ((rV).view.read (Elt F)
            ((rV).view.writes (Elt F) fr
              [⟨Rect.whole cc0_scratch1.ty.shape,
                SparseCore.gatherPayload gathers_S130x128_S128x128 ((xAll').view.read (Elt F) tab)
                  (SparseCore.rows ((sV).view.read (Elt F) (View.write (Elt F) (sV).view fs (ReadAs.same.apply ((iChunk' L k).view.read (Elt F) flat)) Finset.univ)) hn hin)⟩]))⟩] x
      = Cert.Lookup.rowsOf (flat : S819200.Idx → BitVec 32) (tab : S130x128.Idx → Elt F .f32) x := by
  intro x hx
  obtain ⟨y, rfl⟩ := exists_of_mem_chunkSet L k hx
  rw [writes_whole_oChunk_emb]
  show (rV).view.read (Elt F) ((rV).view.writes (Elt F) fr [⟨Rect.whole cc0_scratch1.ty.shape, _⟩]) y = _
  rw [read_writes_whole_rV]
  refine (Cert.Lookup.gatherPayload_apply gathers_S130x128_S128x128 _ _ y).trans ?_
  rw [read_xAll]
  have hb : (y 1 : Fin 128) = (((oChunk L k).view.emb y) 1 : Fin 128) := Fin.ext (oChunk_emb_val1 L k y).symm
  exact congrArg₂ (fun (a : Fin 130) (b : Fin 128) => tab (ix2 a b)) (rows_eq_rowOf L k flat fs hn hin y) hb

end Cert.Proof.KernelIdeal
end
-- ==== Proof.KernelIdeal.Tile.lean ====
/-
  One tile's task, proved once for the tile at a symbolic place (SparseCore `L 0`, vector subcore `L 1`). The task is a
  loop of 200 trips; trip `k` copies words `base + 128 k .. base + 128 k + 127` of the flat list into the tile's list
  buffer and waits; gathers, for each of those 128 words, the table's row it names into the tile's row buffer and waits;
  copies the row buffer to rows `base + 128 k ..` of the flat output and waits. Every copy is waited for before the next
  starts, so nothing is read or written while in flight. The invariant before trip `k`: the tile's output rows written
  by the first `k` trips hold the lookup, the others what the launch left; the shares of the list and the table, the two
  buffers and the three semaphores (at zero) are held. Each word is at most 127 (the precondition), so names a row of the
  130-row table: the gather is served whole.
-/
import proofs.«206145_g82884278878518_cont_9to1_m_1113_2_alg».proof.Defs
import proofs.«206145_g82884278878518_cont_9to1_m_1113_2_alg».proof.Proof.Gen.KernelIdeal
import proofs.«206145_g82884278878518_cont_9to1_m_1113_2_alg».proof.Proof.Gen.KernelIdeal.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.KernelIdeal.Pay
import proofs.«206145_g82884278878518_cont_9to1_m_1113_2_alg».proof.Proof.KernelIdeal.ChunkValue

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "fV" => (Memref.whole Cert.KernelIdeal.main_v0_scv : Memref Cert.KernelIdeal.sig Kind.scVector Space.hbm Cert.KernelIdeal.S819200 EltTy.i32)
local notation "xV" => (Memref.whole Cert.KernelIdeal.main_arg1_scv : Memref Cert.KernelIdeal.sig Kind.scVector Space.hbm Cert.KernelIdeal.S130x128 EltTy.f32)
local notation "oW" => (Memref.whole Cert.KernelIdeal.main_v1_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

/-- What the proof asks of the launch memory: every word of the batch is at most 127. -/
def PreOK : Prop := ∀ (d : Dev nD) (j : S4096x200.Idx), (m (iLoc d) j).toNat ≤ 127

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- Trip `k`'s 128 words of the flat list, and the whole table, as the body slices them. -/
abbrev iChunk (L : grid0.Coords) (k : Fin k0_t1_loop.trips) : Memref sig .scVector .hbm S128 .i32 :=
  (fV).slice (Rect.unit (s := S819200) (k0_off1 L k) S128.size (k0_off1_inb L k)) (fun _ => rfl)
abbrev xAll : Memref sig .scVector .hbm S130x128 .f32 :=
  (xV).slice (Rect.unit (s := S130x128) ![0, 0] S130x128.size inb_S130x128_S130x128_0_0) (fun _ => rfl)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- Holding all of a buffer is holding its whole view's element set. -/
theorem pts_univ_set {ℓ : Loc nD τ sig} {I : Finset (Idx ℓ)} (h : I = Finset.univ) (q : PosShare TreeShare) (f : Buf (Elt F) ℓ) :
    (ℓ ↦{q} f : sProp 𝕄) = ℓ ↦[I]{q} f := by rw [h]

omit [FloatOps F] in
/-- Every word of the flat list is at most 127: it is a word of the batch. -/
theorem flat_le (hpre : PreOK m) (y : S819200.Idx) : (flatOf m d y).toNat ≤ 127 := hpre d _

omit [FloatOps F] in
/-- The words the gather reads are in range: what the list fetch landed in the list buffer is 128 words of the flat list,
    each at most 127, below the table's 130 rows. -/
theorem inb_of_pre (hpre : PreOK m) (k : Fin k0_t1_loop.trips) (fs : Buf (Elt F) ((V d (cV L) (jV L)).loc cc0_scratch0)) (pay : S128.Idx → Elt F .i32)
    (hpay : pay = (iChunk L k).view.read (Elt F) (flatOf m d)) :
    ∀ x, ((sV).view.read (Elt F) (View.write (Elt F) (sV).view fs pay Finset.univ) x).toNat < S130x128.size gathers_S130x128_S128x128.axis := by
  subst hpay; intro x
  rw [View.write_whole_univ]
  simp only [Memref.view_whole, View.read_whole]
  rw [show ∀ j, (iChunk L k).view.read (Elt F) (flatOf m d) j = flatOf m d ((iChunk L k).view.emb j) from fun j => (View.read_apply _ _).trans (cast_eq _ _)]
  have h := flat_le m d hpre ((iChunk L k).view.emb x)
  show _ < 130
  omega

/-- The loop's invariant before trip `k`. -/
def inv (O : CellTallies nD τ sig (HIx 1)) (W : Waits sig (HIx 1)) (k : Nat) (_ : PUnit) : sProp 𝕄 :=
  iprop(Transfers.MayWaits (thr d L) (none : HIx 1) O
    ∗ ((fV).view.loc (thr d L) ↦{qT (L 0).val (L 1).val} flatOf m d)
    ∗ ((xV).view.loc (thr d L) ↦{qT (L 0).val (L 1).val} m (xLoc d))
    ∗ ((oW).view.loc (thr d L) ↦[doneSet (L 0).val (L 1).val k]{fullShare} rowsG m d)
    ∗ ((oW).view.loc (thr d L) ↦[tileSet (L 0).val (L 1).val \ doneSet (L 0).val (L 1).val k]{fullShare} m (oLoc d))
    ∗ (∃ fs, (sV).view.loc (thr d L) ↦{fullShare} fs)
    ∗ (∃ fr, (rV).view.loc (thr d L) ↦{fullShare} fr)
    ∗ semVal (cGcell d (cV L) (jV L)) 0 ∗ semVal (cAcell d (cV L) (jV L)) 0 ∗ semVal (cBcell d (cV L) (jV L)) 0
    ∗ ∃ W', ⌜∀ p ∈ W', p ∈ W ∨ p.2 = none⌝ ∗ owes (thr d L) O W')

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileIn m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L fV (Memref.isWhole_whole _) xV (Memref.isWhole_whole _) oW (Memref.isWhole_whole _)
            sV (Memref.isWhole_whole _) rV (Memref.isWhole_whole _) cc0_scratch2 cc0_scoped0 cc0_scoped1)
          fun _ => iprop(tileOut m d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold tileIn
  iintro ⟨#Hlv, -, ⟨Hf, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv m d L O W) $$ [Hmw Hf Hx Ho Hs Hr HsemG HsemA HsemB HO]
  case region =>
    intro k _
    unfold inv
    iintro ⟨Hmw, Hf, Hx, Hdone, Htodo, ⟨%fs, Hs⟩, ⟨%fr, Hr⟩, HsemG, HsemA, HsemB, %W', %hW', HO⟩
    rw [← todo_succ L k, ← done_succ L k]
    -- this trip's rows of the output, out of those not yet written
    ihave Ht := (pointsTo_split_subset (ℓ := (oChunk L k).view.loc (thr d L)) (q := fullShare) (f := m (oLoc d)) (chunk_sub_todo L k)).1 $$ Htodo
    icases Ht with ⟨Hck, Hrest⟩
    ihave Hck' := (Entails.of_eq (show ((oChunk L k).view.loc (thr d L) ↦[chunkSet L k]{fullShare} m (oLoc d) : sProp 𝕄)
      = ((oChunk L k).view.loc (thr d L) ↦[(oChunk L k).view.set]{fullShare} m (oLoc d)) from rfl)) $$ Hck
    -- the list fetch and its wait
    sl_exec
    -- the words just fetched name rows of the table: the gather is served whole; then its wait, the write-out and its wait
    have hin := inb_of_pre m d L hpre k fs (tile_body.sl.dma0 m d L k) rfl
    sl_exec
    sl_step
    -- the rows just written hold the lookup
    have hval : ∀ x ∈ chunkSet L k,
        (oChunk L k).view.writes (Elt F) (m (oLoc d)) [⟨Rect.whole S128x128, tile_body.sl.dma0_1 m d L k fs fr hin⟩] x = rowsG m d x := by
      intro x hx
      unfold rowsG
      exact chunk_value L k (flatOf m d) (m (xLoc d)) (m (oLoc d)) fs fr _ hin x hx
    ihave Hck2 := (Entails.of_eq (pointsTo_congr (ℓ := (oChunk L k).view.loc (thr d L)) (q := fullShare) (I := chunkSet L k) hval)) $$ Hck'
    ihave Hj := (pointsTo_union (ℓ := (oChunk L k).view.loc (thr d L)) (q := fullShare) (f := rowsG m d) (done_disjoint_chunk L k)).2 $$ [Hdone Hck2]
    · isplitl [Hdone]; · iexact Hdone
      iexact Hck2
    isplitl [Hmw]; · iexact Hmw
    isplitl [Hf]; · iexact Hf
    isplitl [Hx]; · iexact Hx
    isplitl [Hj]; · iexact Hj
    isplitl [Hrest]; · iexact Hrest
    isplitl [Hs]; · iexists _; iexact Hs
    isplitl [Hr]; · iexists _; iexact Hr
    isplitl [HsemG]; · iexact HsemG
    isplitl [HsemA]; · iexact HsemA
    isplitl [HsemB]; · iexact HsemB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    rw [doneSet_zero, Finset.sdiff_empty, pointsTo_empty]
    isplitl [Hmw]; · iexact Hmw
    isplitl [Hf]; · iexact Hf
    isplitl [Hx]; · iexact Hx
    isplitr; · iempintro
    isplitl [Ho]; · iexact Ho
    isplitl [Hs]; · iexists _; iexact Hs
    isplitl [Hr]; · iexists _; iexact Hr
    isplitl [HsemG]; · iexact HsemG
    isplitl [HsemA]; · iexact HsemA
    isplitl [HsemB]; · iexact HsemB
    iexists W; isplitr
    · ipureintro; exact fun p hp => .inl hp
    · iexact HO
  iintro %_ HI
  unfold inv
  icases HI with ⟨-, Hf, Hx, Hdone, -, Hs, Hr, HsemG, HsemA, HsemB, %W', %hW', HO⟩
  sl_exec
  sl_step
  -- after the 200th trip the rows written are all the tile's rows
  have hall : doneSet (L 0).val (L 1).val (Scf.trips k0_t1_loop.lb k0_t1_loop.ub k0_t1_loop.st) = tileSet (L 0).val (L 1).val := by
    rw [show Scf.trips k0_t1_loop.lb k0_t1_loop.ub k0_t1_loop.st = 200 from trips_eq]; exact doneSet_all _ _
  ihave Hd := (Entails.of_eq (congrArg (fun I => ((oW).view.loc (thr d L) ↦[I]{fullShare} rowsG m d : sProp 𝕄)) hall)) $$ Hdone
  unfold tileOut
  isplitl [Hf Hx Hd]
  · isplitl [Hf]; · iexact Hf
    isplitl [Hx]; · iexact Hx
    iexact Hd
  isplitl [Hs Hr Hbufs]
  · isplitl [Hs]; · iexact Hs
    isplitl [Hr]; · iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Tile

end Cert.Proof.KernelIdeal

end
-- ==== Proof.KernelIdeal.Obl.lean ====
/-
  The tile's task as the launch asks for it: for every device, SparseCore `c` of the call's two and vector subcore `i` of its
  sixteen, the body table's row for that processor is the kernel at the place `(c, i)`, and its proof is the one proof of the
  body at a symbolic place.
-/
import proofs.«206145_g82884278878518_cont_9to1_m_1113_2_alg».proof.Defs
import proofs.«206145_g82884278878518_cont_9to1_m_1113_2_alg».proof.Proof.Gen.KernelIdeal
import proofs.«206145_g82884278878518_cont_9to1_m_1113_2_alg».proof.Proof.Gen.KernelIdeal.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.KernelIdeal.Tile

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "fV" => (Memref.whole Cert.KernelIdeal.main_v0_scv : Memref Cert.KernelIdeal.sig Kind.scVector Space.hbm Cert.KernelIdeal.S819200 EltTy.i32)
local notation "xV" => (Memref.whole Cert.KernelIdeal.main_arg1_scv : Memref Cert.KernelIdeal.sig Kind.scVector Space.hbm Cert.KernelIdeal.S130x128 EltTy.f32)
local notation "oW" => (Memref.whole Cert.KernelIdeal.main_v1_scv : Memref Cert.KernelIdeal.sig Kind.scVector Space.hbm Cert.KernelIdeal.S819200x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s)
          fV (Memref.isWhole_whole _) xV (Memref.isWhole_whole _) oW (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.KernelIdeal

end
-- ==== Proof.KernelIdeal.Split.lean ====
/-
  A SparseCore's operands are its sixteen tiles' parts and nothing else, so splitting them among the tasks and gathering
  the results back is the identity: what the SparseCore is handed is the tasks' parts together, and what it hands back is
  what they hand back, together.
-/
import proofs.«206145_g82884278878518_cont_9to1_m_1113_2_alg».proof.Defs
import proofs.«206145_g82884278878518_cont_9to1_m_1113_2_alg».proof.Proof.Gen.KernelIdeal
import proofs.«206145_g82884278878518_cont_9to1_m_1113_2_alg».proof.Proof.Gen.KernelIdeal.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.KernelIdeal.Pay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

theorem vecSplit : (K (F := F)).VecSplit' (P m) 0 := by
  intro d c
  show (bigSep Finset.univ fun s : Fin 16 => tileIn m d c.val s.val)
    ⊢ |={Set.univ}=> iprop((bigSep Finset.univ fun s : Fin 16 => tileIn m d c.val s.val)
        ∗ ((bigSep Finset.univ fun s : Fin 16 => tileOut m d c.val s.val) -∗ bigSep Finset.univ fun s : Fin 16 => tileOut m d c.val s.val))
  iintro H; imodintro
  isplitl [H]; · iexact H
  iintro H; iexact H

end Cert.Proof.KernelIdeal

end
-- ==== Proof.Kernel.Tiles.lean ====
/-
  The rows of the flat output each tile fills, as sets of indices. The output has 819200 rows of 128 numbers. The tile on
  SparseCore `c` (of 2), vector subcore `s` (of 16) owns the 25600 consecutive rows from `51200 s + 25600 c`, and fills them
  in 200 trips of 128 rows: trip `k` writes the rows from `51200 s + 25600 c + 128 k`. The thirty-two tiles' row ranges are
  pairwise disjoint and together are every row; within a tile, the rows written before trip `k` and trip `k`'s own rows
  are disjoint, and together are the rows written before trip `k + 1`.
-/
import proofs.«206145_g82884278878518_cont_9to1_m_1113_2_alg».proof.Defs
import proofs.«206145_g82884278878518_cont_9to1_m_1113_2_alg».proof.Proof.Gen.Kernel
import proofs.«206145_g82884278878518_cont_9to1_m_1113_2_alg».proof.Proof.Gen.Kernel.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- The first row of the tile on SparseCore `c`, vector subcore `s`. -/
def base (c s : ℕ) : ℕ := 51200 * s + 25600 * c

/-- The tile's rows, every column. -/
def tileSet (c s : ℕ) : Finset S819200x128.Idx :=
  Finset.univ.filter fun x => base c s ≤ (x 0).val ∧ (x 0).val < base c s + 25600

/-- The rows the tile's first `k` trips write. -/
def doneSet (c s k : ℕ) : Finset S819200x128.Idx :=
  Finset.univ.filter fun x => base c s ≤ (x 0).val ∧ (x 0).val < base c s + 128 * k

theorem trips_eq : k0_t1_loop.trips = 200 := by decide

/-- The flat output as a vector subcore addresses it, and trip `k`'s 128 rows of it as the body slices them. -/
abbrev oV : Memref sig .scVector .hbm S819200x128 .f32 := Memref.whole main_v1_scv
abbrev oChunk (L : grid0.Coords) (k : Fin k0_t1_loop.trips) : Memref sig .scVector .hbm S128x128 .f32 :=
  (oV).slice (Rect.unit (s := S819200x128) (k0_off2 L k) S128x128.size (k0_off2_inb L k)) (fun _ => rfl)
/-- Trip `k`'s rows, as a set. -/
abbrev chunkSet (L : grid0.Coords) (k : Fin k0_t1_loop.trips) : Finset S819200x128.Idx := (oChunk L k).view.set

theorem mem_chunkSet (L : grid0.Coords) (k : Fin k0_t1_loop.trips) (x : S819200x128.Idx) :
    x ∈ chunkSet L k ↔ base (L 0).val (L 1).val + 128 * k.val ≤ (x 0).val ∧ (x 0).val < base (L 0).val (L 1).val + 128 * k.val + 128 := by
  show x ∈ ((View.whole (main_v1_scv : Ref sig .scVector)).slice (Rect.unit (s := S819200x128) (k0_off2 L k) S128x128.size (k0_off2_inb L k))).set ↔ _
  rw [View.set_slice_whole, Rect.mem_set_unit, k0_off2_eq]
  unfold base
  constructor
  · intro h
    have h0 := h 0
    simp only [Matrix.cons_val_zero] at h0
    have : S128x128.size 0 = 128 := rfl
    omega
  · intro h a
    match a with
    | ⟨0, _⟩ =>
      show 51200 * (L 1).val + 25600 * (L 0).val + 128 * k.val ≤ (x 0).val ∧ (x 0).val < 51200 * (L 1).val + 25600 * (L 0).val + 128 * k.val + 128
      omega
    | ⟨1, _⟩ =>
      show 0 ≤ (x 1).val ∧ (x 1).val < 0 + 128
      have := (x 1).isLt
      have e : S819200x128.size 1 = 128 := rfl
      omega

theorem mem_tileSet (c s : ℕ) (x : S819200x128.Idx) : x ∈ tileSet c s ↔ base c s ≤ (x 0).val ∧ (x 0).val < base c s + 25600 := by
  simp [tileSet]
theorem mem_doneSet (c s k : ℕ) (x : S819200x128.Idx) : x ∈ doneSet c s k ↔ base c s ≤ (x 0).val ∧ (x 0).val < base c s + 128 * k := by
  simp [doneSet]

theorem doneSet_zero (c s : ℕ) : doneSet c s 0 = ∅ := by
  ext x; simp only [mem_doneSet, Finset.notMem_empty, iff_false]; omega
theorem doneSet_all (c s : ℕ) : doneSet c s 200 = tileSet c s := by
  ext x; simp only [mem_doneSet, mem_tileSet]
theorem doneSet_sub (c s k : ℕ) (hk : k ≤ 200) : doneSet c s k ⊆ tileSet c s := by
  intro x; simp only [mem_doneSet, mem_tileSet]; omega

/-- Trip `k`'s rows are among the tile's rows not yet written, -/
theorem chunk_sub_todo (L : grid0.Coords) (k : Fin k0_t1_loop.trips) :
    chunkSet L k ⊆ tileSet (L 0).val (L 1).val \ doneSet (L 0).val (L 1).val k.val := by
  intro x hx
  have hk : k.val < 200 := trips_eq ▸ k.isLt
  rw [mem_chunkSet] at hx
  simp only [Finset.mem_sdiff, mem_tileSet, mem_doneSet]; omega
/-- taking them out leaves the rows not written after the trip, -/
theorem todo_succ (L : grid0.Coords) (k : Fin k0_t1_loop.trips) :
    (tileSet (L 0).val (L 1).val \ doneSet (L 0).val (L 1).val k.val) \ chunkSet L k
      = tileSet (L 0).val (L 1).val \ doneSet (L 0).val (L 1).val (k.val + 1) := by
  ext x
  have hk : k.val < 200 := trips_eq ▸ k.isLt
  simp only [Finset.mem_sdiff, mem_tileSet, mem_doneSet, mem_chunkSet]; omega
/-- they are disjoint from the rows written before, -/
theorem done_disjoint_chunk (L : grid0.Coords) (k : Fin k0_t1_loop.trips) :
    Disjoint (doneSet (L 0).val (L 1).val k.val) (chunkSet L k) := by
  rw [Finset.disjoint_left]; intro x h1 h2
  rw [mem_chunkSet] at h2; rw [mem_doneSet] at h1; omega
/-- and with them make the rows written after the trip. -/
theorem done_succ (L : grid0.Coords) (k : Fin k0_t1_loop.trips) :
    doneSet (L 0).val (L 1).val k.val ∪ chunkSet L k = doneSet (L 0).val (L 1).val (k.val + 1) := by
  ext x
  simp only [Finset.mem_union, mem_doneSet, mem_chunkSet]; omega

/-- Two different tiles' rows are disjoint. -/
theorem tileSet_disjoint {c s c' s' : ℕ} (hc : c < 2) (hc' : c' < 2) (h : (c, s) ≠ (c', s')) : Disjoint (tileSet c s) (tileSet c' s') := by
  rw [Finset.disjoint_left]; intro x h1 h2
  rw [mem_tileSet] at h1 h2; unfold base at h1 h2
  apply h
  have : c = c' ∧ s = s' := by omega
  rw [this.1, this.2]
/-- Every row is some tile's. -/
theorem tileSet_cover (x : S819200x128.Idx) : ∃ c s, c < 2 ∧ s < 16 ∧ x ∈ tileSet c s := by
  have hx : (x 0).val < 819200 := (x 0).isLt
  refine ⟨((x 0).val / 25600) % 2, (x 0).val / 51200, Nat.mod_lt _ (by decide), by omega, ?_⟩
  rw [mem_tileSet]; unfold base; omega

end Cert.Proof.Kernel

end
-- ==== Proof.Kernel.Pay.lean ====
/-
  What the one SparseCore call hands each processor and takes back. Three arrays are in play: the flat list of 819200
  words (the batch of words flattened row-major by the host before the call), the table, and the flat output of 819200 rows.
  Every tile READS the whole list and the whole table, so each holds a thirty-second share of both (the full share cut in two
  for the SparseCores, each half in sixteen for its tiles), and WRITES only its own 25600 rows of the output, which it holds
  outright. A SparseCore is handed its sixteen tiles' parts together. On the way back the output rows hold the lookup:
  row `r` is the table's row named by word `r` of the list.
-/
import proofs.«206145_g82884278878518_cont_9to1_m_1113_2_alg».proof.Defs
import proofs.«206145_g82884278878518_cont_9to1_m_1113_2_alg».proof.Proof.Gen.Kernel
import proofs.«206145_g82884278878518_cont_9to1_m_1113_2_alg».proof.Proof.Gen.Kernel.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.Kernel.Tiles

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The batch of words, the table, the flat list, the flat output, the result. -/
abbrev iLoc (d : Dev nD) : Loc nD τ sig := (SparseCore.T d).loc main_arg0
abbrev xLoc (d : Dev nD) : Loc nD τ sig := (SparseCore.T d).loc main_arg1
abbrev fLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The flat list: the batch of words in row-major order. -/
def flatOf (d : Dev nD) : Buf (Elt F) (fLoc d) :=
  shapeCast S819200 (m (iLoc d) : S4096x200.Idx → Elt F .i32) Gen.shapeCasts_S4096x200_S819200

/-- The flat output once every tile is done: the lookup over the flat list. -/
def rowsG (d : Dev nD) : Buf (Elt F) (oLoc d) :=
  Cert.Lookup.rowsOf (flatOf m d) (m (xLoc d) : S130x128.Idx → Elt F .f32)

/-- The result: the flat output cut back into the batch. -/
def resG (d : Dev nD) : Buf (Elt F) (rLoc d) :=
  shapeCast S4096x200x128 (rowsG m d : S819200x128.Idx → Elt F .f32) Gen.shapeCasts_S819200x128_S4096x200x128

/-- The share of the list and of the table the tile on SparseCore `c`, vector subcore `s` holds. -/
def qT (c s : ℕ) : PosShare TreeShare :=
  pieceOf (pieceOf fullShare 2 (by decide) ⟨c % 2, Nat.mod_lt _ (by decide)⟩) 16 (by decide) ⟨s % 16, Nat.mod_lt _ (by decide)⟩

/-- What a tile is handed: its shares of the list and the table, its rows of the output as the launch left them; -/
def tileIn (d : Dev nD) (c s : ℕ) : sProp 𝕄 :=
  iprop((fLoc d ↦{qT c s} flatOf m d) ∗ (xLoc d ↦{qT c s} m (xLoc d)) ∗ oLoc d ↦[tileSet c s]{fullShare} m (oLoc d))
/-- and what it hands back: the same shares, its rows of the output holding the lookup. -/
def tileOut (d : Dev nD) (c s : ℕ) : sProp 𝕄 :=
  iprop((fLoc d ↦{qT c s} flatOf m d) ∗ (xLoc d ↦{qT c s} m (xLoc d)) ∗ oLoc d ↦[tileSet c s]{fullShare} rowsG m d)

instance tileIn_storable (d : Dev nD) (c s : ℕ) : BI.Storable (upEmb : UEmb _ 𝕄) (tileIn m d c s) := by
  unfold tileIn; infer_instance
instance tileOut_storable (d : Dev nD) (c s : ℕ) : BI.Storable (upEmb : UEmb _ 𝕄) (tileOut m d c s) := by
  unfold tileOut; infer_instance

/-- A SparseCore is handed its sixteen tiles' parts, and hands back theirs. -/
def P : (K (F := F)).Pay (nD := nD) (Val := Elt F) (Name := ℕ) (U := UU) where
  st := fun _ d c => bigSep Finset.univ fun s : Fin 16 => tileIn m d c.val s.val
  dn := fun _ d c => bigSep Finset.univ fun s : Fin 16 => tileOut m d c.val s.val
  go := fun _ d c i => tileIn m d c.val i.val
  td := fun _ d c i => tileOut m d c.val i.val
  x := fun _ _ => iprop(emp)

instance P_storable : (P (F := F) m).IsStorable where
  st _ d c := by unfold P; infer_instance
  dn _ d c := by unfold P; infer_instance
  go _ d c i := by unfold P; infer_instance
  td _ d c i := by unfold P; infer_instance

end Cert.Proof.Kernel

end
-- ==== Proof.Kernel.Main.lean ====
/-
  The TensorCore's side of the one SparseCore call, and the run of the whole program. The host flattens the batch of
  words, hands every tile a thirty-second share of the flat list and of the table and the tile's own 25600 rows of the
  flat output, takes all of it back with the output rows holding the lookup, and cuts the flat output back into the
  batch's shape. The thirty-two shares of an array add up to the whole share, and the thirty-two row ranges are pairwise
  disjoint and cover every row, so "the three arrays held whole" and "every tile's part" are the same assertion, whatever
  the arrays hold: read one way it hands the parts out, the other way it gathers them in.
-/
import proofs.«206145_g82884278878518_cont_9to1_m_1113_2_alg».proof.Proof.Kernel.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The thirty-two parts of the three arrays -/

/-- For a SparseCore and a vector subcore in range, the tile's share is the piece the two cuts name. -/
theorem qT_eq (c : Fin 2) (s : Fin 16) :
    qT c.val s.val = pieceOf (pieceOf fullShare 2 (by decide) c) 16 (by decide) s := by
  unfold qT
  have hc : (⟨c.val % 2, Nat.mod_lt _ (by decide)⟩ : Fin 2) = c := Fin.ext (Nat.mod_eq_of_lt c.isLt)
  have hs : (⟨s.val % 16, Nat.mod_lt _ (by decide)⟩ : Fin 16) = s := Fin.ext (Nat.mod_eq_of_lt s.isLt)
  rw [hc, hs]

/-- An array held whole is held at the thirty-two tiles' shares at once. -/
theorem shares_split {ℓ : Loc nD τ sig} (f : Buf (Elt F) ℓ) :
    (ℓ ↦{fullShare} f : sProp 𝕄) = bigSep Finset.univ fun c : Fin 2 => bigSep Finset.univ fun s : Fin 16 => ℓ ↦{qT c.val s.val} f := by
  rw [pointsTo_piecesOf Finset.univ f (o := 2) (by decide) fullShare]
  refine bigSep_congr fun c _ => ?_
  rw [pointsTo_piecesOf Finset.univ f (o := 16) (by decide) (pieceOf fullShare 2 (by decide) c)]
  refine bigSep_congr fun s _ => ?_
  rw [qT_eq]

/-- The tiles' row ranges, indexed by the pair (SparseCore, vector subcore). -/
def pairSet (p : Fin 2 × Fin 16) : Finset S819200x128.Idx := tileSet p.1.val p.2.val

theorem pairSet_disjoint : ∀ p ∈ (Finset.univ : Finset (Fin 2 × Fin 16)), ∀ p' ∈ (Finset.univ : Finset (Fin 2 × Fin 16)),
    p ≠ p' → Disjoint (pairSet p) (pairSet p') := fun p _ p' _ h =>
  tileSet_disjoint p.1.isLt p'.1.isLt fun e =>
    h (Prod.ext (Fin.ext (Prod.mk.inj e).1) (Fin.ext (Prod.mk.inj e).2))

theorem pairSet_cover : (Finset.univ : Finset (Fin 2 × Fin 16)).biUnion pairSet = Finset.univ := by
  ext x
  simp only [Finset.mem_biUnion, Finset.mem_univ, true_and, iff_true]
  obtain ⟨c, s, hc, hs, hx⟩ := tileSet_cover x
  exact ⟨(⟨c, hc⟩, ⟨s, hs⟩), hx⟩

/-- The flat output held whole is every tile's rows of it held at once. -/
theorem rows_split (d : Dev nD) (f : Buf (Elt F) (oLoc d)) :
    (oLoc d ↦{fullShare} f : sProp 𝕄)
      = bigSep Finset.univ fun c : Fin 2 => bigSep Finset.univ fun s : Fin 16 => oLoc d ↦[tileSet c.val s.val]{fullShare} f := by
  have h := pointsTo_biUnion (ℓ := oLoc d) (q := fullShare) (f := f) (Ix := HIx 1) (Name := ℕ) (U := UU) (Lvl := ℕ)
    (Finset.univ : Finset (Fin 2 × Fin 16)) pairSet pairSet_disjoint
  rw [pairSet_cover] at h
  rw [h, ← Finset.univ_product_univ, SparseCore.bigSep_product]
  rfl

/-- The three arrays held whole are the thirty-two tiles' parts, whatever the arrays hold. -/
theorem parts_eq (d : Dev nD) (ff : Buf (Elt F) (fLoc d)) (ft : Buf (Elt F) (xLoc d)) (fo : Buf (Elt F) (oLoc d)) :
    (iprop((fLoc d ↦{fullShare} ff) ∗ (xLoc d ↦{fullShare} ft) ∗ oLoc d ↦{fullShare} fo) : sProp 𝕄)
      = bigSep Finset.univ fun c : Fin 2 => bigSep Finset.univ fun s : Fin 16 =>
          iprop((fLoc d ↦{qT c.val s.val} ff) ∗ (xLoc d ↦{qT c.val s.val} ft) ∗ oLoc d ↦[tileSet c.val s.val]{fullShare} fo) := by
  rw [shares_split ff, shares_split ft, rows_split d fo, ← bigSep_sep', ← bigSep_sep']
  refine bigSep_congr fun c _ => ?_
  rw [← bigSep_sep', ← bigSep_sep']

/-! ## The launch element of the ghost state -/

variable [FloatOps F]

def u₀ : UU := (initOf (K (F := F)).hsCells (K (F := F)).hsToks, 1)

theorem bigSep_emp' {I : Type} (s : Finset I) : (bigSep s fun _ => iprop(emp)) = (iprop(emp) : sProp 𝕄) := bigSep_emp_const s

variable (m : (ℓ : Loc nD τ sig) → Buf (Elt F) ℓ) (ρ : Dev nD → PrngReg)

/-- The kernel only makes local copies and waits for them: the counters are dropped, no call consumes anything. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the call takes and hands back -/

theorem st_eq (d : Dev nD) (c : Fin 2) : (P m).st 0 d c = bigSep Finset.univ fun s : Fin 16 => tileIn m d c.val s.val := by
  unfold P; rfl
theorem dn_eq (d : Dev nD) (c : Fin 2) : (P m).dn 0 d c = bigSep Finset.univ fun s : Fin 16 => tileOut m d c.val s.val := by
  unfold P; rfl

/-- The call takes the flat list, the table and the flat output whole, -/
theorem st0_eq (d : Dev nD) : (bigSep Finset.univ fun c : Fin ((K (F := F)).nCore 0) => (P m).st 0 d c)
    = iprop((fLoc d ↦{fullShare} flatOf m d) ∗ (xLoc d ↦{fullShare} m (xLoc d)) ∗ oLoc d ↦{fullShare} m (oLoc d)) := by
  show (bigSep (Finset.univ : Finset (Fin 2)) fun c => (P m).st 0 d c) = _
  rw [parts_eq]
  refine bigSep_congr fun c _ => ?_
  rw [st_eq]
  refine bigSep_congr fun s _ => ?_
  unfold tileIn; rfl
/-- and hands them back whole, the flat output holding the lookup. -/
theorem dn0_eq (d : Dev nD) : (bigSep Finset.univ fun c : Fin ((K (F := F)).nCore 0) => (P m).dn 0 d c)
    = iprop((fLoc d ↦{fullShare} flatOf m d) ∗ (xLoc d ↦{fullShare} m (xLoc d)) ∗ oLoc d ↦{fullShare} rowsG m d) := by
  show (bigSep (Finset.univ : Finset (Fin 2)) fun c => (P m).dn 0 d c) = _
  rw [parts_eq]
  refine bigSep_congr fun c _ => ?_
  rw [dn_eq]
  refine bigSep_congr fun s _ => ?_
  unfold tileOut; rfl

/-! ## The TensorCore's arrays -/

abbrev i' : DevRef τ sig := Proc.devRef .tc (main_arg0 : Ref sig .tc)
abbrev x' : DevRef τ sig := Proc.devRef .tc (main_arg1 : Ref sig .tc)
abbrev f' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The host's two operations: the batch of words flattened, the flat output cut back into the batch. -/
abbrev opFlat : HloOp τ sig (Elt F) := StableHlo.reshape main_arg0 main_v0 rfl shapeCasts_S4096x200_S819200
abbrev opBack : HloOp τ sig (Elt F) := StableHlo.reshape main_v1 main_v2 rfl shapeCasts_S819200x128_S4096x200x128

/-- The TensorCore's arrays, all unscoped: the batch of words, the table, the flat list, the flat output, the result. -/
abbrev S5 : Finset (DevRef τ sig) := {i', x', f', o', r'}

theorem held_S5 (d : Dev nD) (W : Valuation τ sig (Elt F)) :
    (held (T d) S5 W : sProp 𝕄)
      = iprop((iLoc d ↦{fullShare} W i') ∗ (xLoc d ↦{fullShare} W x') ∗ (fLoc d ↦{fullShare} W f')
          ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (fLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- What the arrays hold: at the launch; once the words are flattened; once the call is back, the flat output holding
    the lookup; once the flat output is cut back into the batch. -/
def V0 (d : Dev nD) : Valuation τ sig (Elt F) := fun b => m (d, b)
def V1 (d : Dev nD) : Valuation τ sig (Elt F) := (opFlat (F := F)).result (V0 m d)
def V2 (d : Dev nD) : Valuation τ sig (Elt F) := Function.update (V1 m d) o' (rowsG m d)
def V3 (d : Dev nD) : Valuation τ sig (Elt F) := (opBack (F := F)).result (V2 m d)

theorem unscoped_held (d : Dev nD) : (unscopedBufs d (fun b => m ((SparseCore.T d).loc b)) : sProp 𝕄) = held (T d) S5 (V0 m d) := by
  rw [unscopedBufs_eq, held_S5]; rfl

theorem V1_i (d : Dev nD) : V1 m d i' = m (iLoc d) := by
  unfold V1; rw [(opFlat (F := F)).result_of_not_mem _ (show i' ∉ ({f'} : Finset (DevRef τ sig)) by decide)]; rfl
theorem V1_x (d : Dev nD) : V1 m d x' = m (xLoc d) := by
  unfold V1; rw [(opFlat (F := F)).result_of_not_mem _ (show x' ∉ ({f'} : Finset (DevRef τ sig)) by decide)]; rfl
theorem V1_o (d : Dev nD) : V1 m d o' = m (oLoc d) := by
  unfold V1; rw [(opFlat (F := F)).result_of_not_mem _ (show o' ∉ ({f'} : Finset (DevRef τ sig)) by decide)]; rfl
theorem V1_r (d : Dev nD) : V1 m d r' = m (rLoc d) := by
  unfold V1; rw [(opFlat (F := F)).result_of_not_mem _ (show r' ∉ ({f'} : Finset (DevRef τ sig)) by decide)]; rfl
/-- The flat list is the batch of words in row-major order. -/
theorem V1_f (d : Dev nD) : V1 m d f' = flatOf m d := by
  unfold V1 flatOf
  rw [StableHlo.reshape_result]; rfl

theorem V2_i (d : Dev nD) : V2 m d i' = m (iLoc d) := (Function.update_of_ne (show i' ≠ o' by decide) _ _).trans (V1_i m d)
theorem V2_x (d : Dev nD) : V2 m d x' = m (xLoc d) := (Function.update_of_ne (show x' ≠ o' by decide) _ _).trans (V1_x m d)
theorem V2_f (d : Dev nD) : V2 m d f' = flatOf m d := (Function.update_of_ne (show f' ≠ o' by decide) _ _).trans (V1_f m d)
theorem V2_o (d : Dev nD) : V2 m d o' = rowsG m d := Function.update_self _ _ _
theorem V2_r (d : Dev nD) : V2 m d r' = m (rLoc d) := (Function.update_of_ne (show r' ≠ o' by decide) _ _).trans (V1_r m d)

theorem V3_i (d : Dev nD) : V3 m d i' = m (iLoc d) := by
  unfold V3; rw [(opBack (F := F)).result_of_not_mem _ (show i' ∉ ({r'} : Finset (DevRef τ sig)) by decide), V2_i]
theorem V3_x (d : Dev nD) : V3 m d x' = m (xLoc d) := by
  unfold V3; rw [(opBack (F := F)).result_of_not_mem _ (show x' ∉ ({r'} : Finset (DevRef τ sig)) by decide), V2_x]
/-- The result is the flat output, the lookup, cut back into the batch. -/
theorem V3_r (d : Dev nD) : V3 m d r' = resG m d := by
  unfold V3 resG
  rw [StableHlo.reshape_result, V2_o]; rfl

theorem held_V1 (d : Dev nD) :
    (held (T d) S5 ((opFlat (F := F)).result (V0 m d)) : sProp 𝕄)
      = iprop((iLoc d ↦{fullShare} m (iLoc d)) ∗ (xLoc d ↦{fullShare} m (xLoc d)) ∗ (fLoc d ↦{fullShare} flatOf m d)
          ∗ (oLoc d ↦{fullShare} m (oLoc d)) ∗ rLoc d ↦{fullShare} m (rLoc d)) := by
  show held (SparseCore.T d) S5 (V1 m d) = _
  rw [held_S5, V1_i, V1_x, V1_f, V1_o, V1_r]
theorem held_V3 (d : Dev nD) :
    (held (T d) S5 ((opBack (F := F)).result (V2 m d)) : sProp 𝕄)
      = iprop((iLoc d ↦{fullShare} m (iLoc d)) ∗ (xLoc d ↦{fullShare} m (xLoc d)) ∗ (fLoc d ↦{fullShare} V3 m d f')
          ∗ (oLoc d ↦{fullShare} V3 m d o') ∗ rLoc d ↦{fullShare} resG m d) := by
  show held (SparseCore.T d) S5 (V3 m d) = _
  rw [held_S5, V3_i, V3_x, V3_r]

theorem hFlat : (opFlat (F := F)).bufs ⊆ S5 := show ({i', f'} : Finset (DevRef τ sig)) ⊆ S5 by decide
theorem hBack : (opBack (F := F)).bufs ⊆ S5 := show ({o', r'} : Finset (DevRef τ sig)) ⊆ S5 by decide

/-! ## @main on the TensorCore -/

/-- What @main leaves the claim: the batch of words and the table at their launch contents, the result holding the
    lookup cut into the batch's shape. -/
abbrev FIN (d : Dev nD) : sProp 𝕄 :=
  iprop((iLoc d ↦{fullShare} m (iLoc d)) ∗ (xLoc d ↦{fullShare} m (xLoc d)) ∗ rLoc d ↦{fullShare} resG m d)

/-- @main on device `d`'s TensorCore: the words flattened (a host operation over the five arrays held whole), the call
    (every tile's part handed out of the flat list, the table and the flat output held whole, and gathered back in with
    the output rows holding the lookup), the flat output cut back into the batch (a host operation again). -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the words flattened
  iapply (wp_hlo_within 𝒱 (SparseCore.T d) none Set.univ (op := opFlat) (S := S5) hFlat (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hi, Hx, Hf, Ho, Hr⟩
  -- the call: the flat list, the table and the flat output to the two SparseCores and back
  iapply ((K (F := F)).wp_run (D (F := F)) 𝒱 (EH := EH) (P := P m) κ d 0) $$ [Hst Hi Hx Hf Ho Hr Hb]
  isplitr; · iexact Hctx
  isplitl [Hst]; · iexact Hst
  isplitl [Hf Hx Ho]
  · rw [st0_eq]
    isplitl [Hf]; · iexact Hf
    isplitl [Hx]; · iexact Hx
    iexact Ho
  iintro ⟨Hst, Hdn⟩
  ihave Hdn' := (Entails.of_eq (dn0_eq m d)) $$ Hdn
  icases Hdn' with ⟨Hf, Hx, Ho⟩
  -- the flat output cut back into the batch
  iapply (wp_hlo_within 𝒱 (SparseCore.T d) none Set.univ (op := opBack) (S := S5) hBack (V := V2 m d)) $$ [Hb Hi Hx Hf Ho Hr]
  · isplitl [Hb]; · iexact Hb
    rw [held_S5, V2_i, V2_x, V2_f, V2_o, V2_r]
    isplitl [Hi]; · iexact Hi
    isplitl [Hx]; · iexact Hx
    isplitl [Hf]; · iexact Hf
    isplitl [Ho]; · iexact Ho
    iexact Hr
  iintro ⟨Hb, Hheld⟩
  ihave Hh := (Entails.of_eq (held_V3 (F := F) m d)) $$ Hheld
  icases Hh with ⟨Hi, Hx, -, -, Hr⟩
  rw [wp_ret]; imodintro; imodintro
  isplitl [Hst]; · iexact Hst
  isplitl [Hi]; · iexact Hi
  isplitl [Hx]; · iexact Hx
  iexact Hr

/-- What the final memory must read on device `d`. -/
def fq (d : Dev nD) (s' : Phys nD τ sig (Elt F)) : Prop :=
  s'.mem.mem (rLoc d) = resG m d ∧ s'.mem.mem (iLoc d) = m (iLoc d) ∧ s'.mem.mem (xLoc d) = m (xLoc d)

set_option maxRecDepth 16384 in
/-- An array held whole at some contents is at those contents in the memory. -/
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := resG m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the thirty-five threads from the launch memory ends, and ends with the result holding
    the lookup cut into the batch's shape, the batch of words and the table as they were: given the proof of one tile's
    task and of how a SparseCore's part splits among its tiles. -/
theorem run_of [∀ e, Nonempty (Elt F e)] (m : (ℓ : Loc nD τ sig) → Buf (Elt F) ℓ) (ρ : Dev nD → PrngReg)
    (hT : (K (F := F)).TileObl (D (F := F)) 𝒱 (P m) v₀ 0) (hS : (K (F := F)).VecSplit' (P m) 0) :
    θ_run (Cert.Kernel.defs (F := F)) (Cert.Kernel.threads (F := F)) ⟨m, fun _ => 0, ρ⟩
      (fun r => ∀ c : Dev nD, r.2.mem (rLoc c) = resG m c ∧ r.2.mem (iLoc c) = m (iLoc c) ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain hS)
    m ρ main (fun _ => iprop(emp)) (FIN m) (u₀ (F := F)) (sep_elim_left.trans (hu₀ m)) (hmain m ρ) (fq m) (hfin m)
    (fun r => ∀ c : Dev nD, r.2.mem (rLoc c) = resG m c ∧ r.2.mem (iLoc c) = m (iLoc c) ∧ r.2.mem (xLoc c) = m (xLoc c))
    (fun _ h => h)

end Cert.Proof.Kernel

end
-- ==== Proof.Kernel.ChunkValue.lean ====
/-
  What one trip of a tile's loop leaves in its 128 rows of the flat output. Trip `k` of the tile at grid place `L` copies
  the 128 words of the flat list from position `off = 51200 (L 1) + 25600 (L 0) + 128 k` into the tile's list buffer;
  gathers, for each of those words, the table's row it names into the tile's 128 x 128 row buffer; and copies the row buffer
  to rows `off ..` of the flat output. Each copy writes the destination with what the source reads. Read at row `off + i`,
  column `j`, the output therefore holds the row buffer's entry `(i, j)`, which is the table at the row named by word `i`
  of the list buffer, column `j`; word `i` of the list buffer is word `off + i` of the flat list. So on the trip's rows the
  output holds the lookup over the flat list.
-/
import proofs.«206145_g82884278878518_cont_9to1_m_1113_2_alg».proof.Defs
import proofs.«206145_g82884278878518_cont_9to1_m_1113_2_alg».proof.Proof.Gen.Kernel
import proofs.«206145_g82884278878518_cont_9to1_m_1113_2_alg».proof.Proof.Gen.Kernel.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.Kernel.Pay
import proofs.«206145_g82884278878518_cont_9to1_m_1113_2_alg».proof.Proof.LookupLaws

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "fV" => (Memref.whole Cert.Kernel.main_v0_scv : Memref Cert.Kernel.sig Kind.scVector Space.hbm Cert.Kernel.S819200 EltTy.i32)
local notation "xV" => (Memref.whole Cert.Kernel.main_arg1_scv : Memref Cert.Kernel.sig Kind.scVector Space.hbm Cert.Kernel.S130x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

/-- Trip `k`'s 128 words of the flat list, and the whole table, as the body slices them. -/
abbrev iChunk' (L : grid0.Coords) (k : Fin k0_t1_loop.trips) : Memref sig .scVector .hbm S128 .i32 :=
  (fV).slice (Rect.unit (s := S819200) (k0_off1 L k) S128.size (k0_off1_inb L k)) (fun _ => rfl)
abbrev xAll' : Memref sig .scVector .hbm S130x128 .f32 :=
  (xV).slice (Rect.unit (s := S130x128) ![0, 0] S130x128.size inb_S130x128_S130x128_0_0) (fun _ => rfl)

/-- The first row of trip `k` of the tile at `L`. -/
abbrev off (L : grid0.Coords) (k : Fin k0_t1_loop.trips) : ℕ := 51200 * (L 1).val + 25600 * (L 0).val + 128 * k.val

/-- A row of the trip's block of the output, placed in the output: row `off + i`, same column. -/
theorem oChunk_emb_val0 (L : grid0.Coords) (k : Fin k0_t1_loop.trips) (y : S128x128.Idx) :
    (((oChunk L k).view.emb y) 0).val = off L k + (y 0).val := by
  show (k0_off2 L k) 0 + 1 * (y 0).val = _
  rw [k0_off2_eq]
  show off L k + 1 * (y 0).val = _
  omega
theorem oChunk_emb_val1 (L : grid0.Coords) (k : Fin k0_t1_loop.trips) (y : S128x128.Idx) :
    (((oChunk L k).view.emb y) 1).val = (y 1).val := by
  show (k0_off2 L k) 1 + 1 * (y 1).val = _
  rw [k0_off2_eq]
  show 0 + 1 * (y 1).val = _
  omega

/-- A word of the trip's block of the flat list, placed in the list: position `off + i`. -/
theorem iChunk_emb_val0 (L : grid0.Coords) (k : Fin k0_t1_loop.trips) (p : S128.Idx) :
    (((iChunk' L k).view.emb p) 0).val = off L k + (p 0).val := by
  show (k0_off1 L k) 0 + 1 * (p 0).val = _
  rw [k0_off1_eq]
  show off L k + 1 * (p 0).val = _
  omega

/-- Every index of the trip's rows is a place of the trip's block. -/
theorem exists_of_mem_chunkSet (L : grid0.Coords) (k : Fin k0_t1_loop.trips) {x : S819200x128.Idx} (hx : x ∈ chunkSet L k) :
    ∃ y : S128x128.Idx, (oChunk L k).view.emb y = x := by
  obtain ⟨y, -, hy⟩ := Finset.mem_map.mp hx
  exact ⟨y, hy⟩

/-- Writing the trip's block of the output with `w` leaves `w y` at the place of `y`. -/
theorem write_oChunk_emb (L : grid0.Coords) (k : Fin k0_t1_loop.trips) (fo : S819200x128.Idx → Elt F .f32)
    (w : S128x128.Idx → Elt F .f32) (y : S128x128.Idx) :
    View.write (Elt F) (oChunk L k).view fo w Finset.univ ((oChunk L k).view.emb y) = w y :=
  (View.write_emb_of_mem (v := (oChunk L k).view) fo w (Finset.mem_univ y)).trans (cast_eq _ _)

/-- The trip's block of the flat list reads the list at its places. -/
theorem read_iChunk (L : grid0.Coords) (k : Fin k0_t1_loop.trips) (flat : S819200.Idx → Elt F .i32) (p : S128.Idx) :
    (iChunk' L k).view.read (Elt F) flat p = flat ((iChunk' L k).view.emb p) :=
  (View.read_apply _ _).trans (cast_eq _ _)

/-- The table sliced whole reads as the table. -/
theorem read_xAll (tab : S130x128.Idx → Elt F .f32) (z : S130x128.Idx) : (xAll').view.read (Elt F) tab z = tab z := by
  refine ((View.read_apply _ _).trans (cast_eq _ _)).trans (congrArg tab (funext fun a => Fin.ext ?_))
  match a with
  | ⟨0, _⟩ => show 0 + 1 * (z 0).val = (z 0).val; omega
  | ⟨1, _⟩ => show 0 + 1 * (z 1).val = (z 1).val; omega

/-- A position of a list of 128, as an index: the index whose one coordinate is the position. -/
theorem rowMajor_symm_S128 (q : Fin S128.numel) : ((S128.rowMajor.symm q) 0).val = q.val := by
  have h := Shape.rowMajor_val_one (d := ![128]) (S128.rowMajor.symm q)
  rw [← h]
  exact congrArg Fin.val (Equiv.apply_symm_apply S128.rowMajor q)

/-- Writing the trip's block of the output, as one piece that is the whole block, with `w` leaves `w y` at the place
    of `y`. -/
theorem writes_whole_oChunk_emb (L : grid0.Coords) (k : Fin k0_t1_loop.trips) (fo : S819200x128.Idx → Elt F .f32)
    (w : S128x128.Idx → Elt F .f32) (y : S128x128.Idx) :
    (oChunk L k).view.writes (Elt F) fo [⟨Rect.whole S128x128, w⟩] ((oChunk L k).view.emb y) = w y := by
  have hy : ((oChunk L k).view.slice (Rect.whole S128x128)).emb y = (oChunk L k).view.emb y :=
    congrArg (oChunk L k).view.emb (Rect.emb_whole_apply S128x128 y)
  rw [← hy]
  exact (View.write_emb_of_mem (v := (oChunk L k).view.slice (Rect.whole S128x128)) fo w (Finset.mem_univ y)).trans (cast_eq _ _)

/-- The row buffer written as one piece that is all of it reads as the payload. -/
theorem read_writes_whole_rV (fr : S128x128.Idx → Elt F .f32) (w : S128x128.Idx → Elt F .f32) :
    (rV).view.read (Elt F) ((rV).view.writes (Elt F) fr [⟨Rect.whole cc0_scratch1.ty.shape, w⟩]) = w := by
  funext y
  have h := View.read_writes_cons_emb (rV).view fr (Rect.whole cc0_scratch1.ty.shape) w [] y
  rw [Rect.emb_whole_apply] at h
  exact h

/-- The list buffer after the first copy, read at a word: the flat list at the word's place. -/
theorem listWord (L : grid0.Coords) (k : Fin k0_t1_loop.trips) (flat : S819200.Idx → Elt F .i32) (fs : S128.Idx → Elt F .i32)
    (q : S128.Idx) :
    (sV).view.read (Elt F) (View.write (Elt F) (sV).view fs (ReadAs.same.apply ((iChunk' L k).view.read (Elt F) flat)) Finset.univ) q
      = flat ((iChunk' L k).view.emb q) := by
  rw [View.read_write_univ]; exact read_iChunk L k flat q

/-- The place in the flat list of the word the gather uses for the block's row `y 0` is the flat position of that row of
    the output. -/
theorem iChunk_emb_rowMajor_symm (L : grid0.Coords) (k : Fin k0_t1_loop.trips) (y : S128x128.Idx)
    (hn : S128.numel = S128x128.size (gathers_S130x128_S128x128).axis') :
    (iChunk' L k).view.emb (S128.rowMajor.symm ((y 0).cast hn.symm))
      = ix1 (((oChunk L k).view.emb y) 0 : Fin 819200) := by
  funext a
  match a with
  | ⟨0, _⟩ =>
    apply Fin.ext
    show (((iChunk' L k).view.emb (S128.rowMajor.symm ((y 0).cast hn.symm))) 0).val = (((oChunk L k).view.emb y) 0).val
    rw [iChunk_emb_val0, rowMajor_symm_S128, oChunk_emb_val0]
    rfl

/-- The row of the table the gather reads for the block's row `y 0`: the row named by the flat list's word at that row's
    flat position. -/
theorem rows_eq_rowOf (L : grid0.Coords) (k : Fin k0_t1_loop.trips) (flat : S819200.Idx → Elt F .i32) (fs : S128.Idx → Elt F .i32)
    (hn : S128.numel = S128x128.size (gathers_S130x128_S128x128).axis')
    (hin : ∀ x, ((sV).view.read (Elt F) (View.write (Elt F) (sV).view fs (ReadAs.same.apply ((iChunk' L k).view.read (Elt F) flat)) Finset.univ) x).toNat
      < S130x128.size (gathers_S130x128_S128x128).axis) (y : S128x128.Idx) :
    SparseCore.rows ((sV).view.read (Elt F) (View.write (Elt F) (sV).view fs (ReadAs.same.apply ((iChunk' L k).view.read (Elt F) flat)) Finset.univ)) hn hin (y 0)
      = Cert.Lookup.rowOf (flat (ix1 (((oChunk L k).view.emb y) 0 : Fin 819200))) := by
  have e : (sV).view.read (Elt F) (View.write (Elt F) (sV).view fs (ReadAs.same.apply ((iChunk' L k).view.read (Elt F) flat)) Finset.univ)
        (S128.rowMajor.symm ((y 0).cast hn.symm))
      = flat (ix1 (((oChunk L k).view.emb y) 0 : Fin 819200)) :=
    (listWord L k flat fs _).trans (congrArg flat (iChunk_emb_rowMajor_symm L k y hn))
  have h1 : (flat (ix1 (((oChunk L k).view.emb y) 0 : Fin 819200))).toNat < 130 := by
    have h := hin (S128.rowMajor.symm ((y 0).cast hn.symm))
    rw [e] at h
    exact h
  apply Fin.ext
  show ((sV).view.read (Elt F) (View.write (Elt F) (sV).view fs (ReadAs.same.apply ((iChunk' L k).view.read (Elt F) flat)) Finset.univ)
      (S128.rowMajor.symm ((y 0).cast hn.symm))).toNat
    = (flat (ix1 (((oChunk L k).view.emb y) 0 : Fin 819200))).toNat % 130
  rw [e]
  exact (Nat.mod_eq_of_lt h1).symm

/-- What trip `k` leaves on its rows: the lookup over the flat list. -/
theorem chunk_value (L : grid0.Coords) (k : Fin k0_t1_loop.trips)
    (flat : S819200.Idx → Elt F .i32) (tab : S130x128.Idx → Elt F .f32) (fo : S819200x128.Idx → Elt F .f32)
    (fs : S128.Idx → Elt F .i32) (fr : S128x128.Idx → Elt F .f32)
    (hn : S128.numel = S128x128.size (gathers_S130x128_S128x128).axis')
    (hin : ∀ x, ((sV).view.read (Elt F) (View.write (Elt F) (sV).view fs (ReadAs.same.apply ((iChunk' L k).view.read (Elt F) flat)) Finset.univ) x).toNat
      < S130x128.size (gathers_S130x128_S128x128).axis) :
    ∀ x ∈ chunkSet L k,
      (oChunk L k).view.writes (Elt F) fo
        [⟨Rect.whole S128x128,
          ReadAs.same.apply ((rV).view.read (Elt F)
            ((rV).view.writes (Elt F) fr
              [⟨Rect.whole cc0_scratch1.ty.shape,
                SparseCore.gatherPayload gathers_S130x128_S128x128 ((xAll').view.read (Elt F) tab)
                  (SparseCore.rows ((sV).view.read (Elt F) (View.write (Elt F) (sV).view fs (ReadAs.same.apply ((iChunk' L k).view.read (Elt F) flat)) Finset.univ)) hn hin)⟩]))⟩] x
      = Cert.Lookup.rowsOf (flat : S819200.Idx → BitVec 32) (tab : S130x128.Idx → Elt F .f32) x := by
  intro x hx
  obtain ⟨y, rfl⟩ := exists_of_mem_chunkSet L k hx
  rw [writes_whole_oChunk_emb]
  show (rV).view.read (Elt F) ((rV).view.writes (Elt F) fr [⟨Rect.whole cc0_scratch1.ty.shape, _⟩]) y = _
  rw [read_writes_whole_rV]
  refine (Cert.Lookup.gatherPayload_apply gathers_S130x128_S128x128 _ _ y).trans ?_
  rw [read_xAll]
  have hb : (y 1 : Fin 128) = (((oChunk L k).view.emb y) 1 : Fin 128) := Fin.ext (oChunk_emb_val1 L k y).symm
  exact congrArg₂ (fun (a : Fin 130) (b : Fin 128) => tab (ix2 a b)) (rows_eq_rowOf L k flat fs hn hin y) hb

end Cert.Proof.Kernel
end
-- ==== Proof.Kernel.Tile.lean ====
/-
  One tile's task, proved once for the tile at a symbolic place (SparseCore `L 0`, vector subcore `L 1`). The task is a
  loop of 200 trips; trip `k` copies words `base + 128 k .. base + 128 k + 127` of the flat list into the tile's list
  buffer and waits; gathers, for each of those 128 words, the table's row it names into the tile's row buffer and waits;
  copies the row buffer to rows `base + 128 k ..` of the flat output and waits. Every copy is waited for before the next
  starts, so nothing is read or written while in flight. The invariant before trip `k`: the tile's output rows written
  by the first `k` trips hold the lookup, the others what the launch left; the shares of the list and the table, the two
  buffers and the three semaphores (at zero) are held. Each word is at most 127 (the precondition), so names a row of the
  130-row table: the gather is served whole.
-/
import proofs.«206145_g82884278878518_cont_9to1_m_1113_2_alg».proof.Defs
import proofs.«206145_g82884278878518_cont_9to1_m_1113_2_alg».proof.Proof.Gen.Kernel
import proofs.«206145_g82884278878518_cont_9to1_m_1113_2_alg».proof.Proof.Gen.Kernel.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.Kernel.Pay
import proofs.«206145_g82884278878518_cont_9to1_m_1113_2_alg».proof.Proof.Kernel.ChunkValue

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "fV" => (Memref.whole Cert.Kernel.main_v0_scv : Memref Cert.Kernel.sig Kind.scVector Space.hbm Cert.Kernel.S819200 EltTy.i32)
local notation "xV" => (Memref.whole Cert.Kernel.main_arg1_scv : Memref Cert.Kernel.sig Kind.scVector Space.hbm Cert.Kernel.S130x128 EltTy.f32)
local notation "oW" => (Memref.whole Cert.Kernel.main_v1_scv : Memref Cert.Kernel.sig Kind.scVector Space.hbm Cert.Kernel.S819200x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

/-- What the proof asks of the launch memory: every word of the batch is at most 127. -/
def PreOK : Prop := ∀ (d : Dev nD) (j : S4096x200.Idx), (m (iLoc d) j).toNat ≤ 127

variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- Trip `k`'s 128 words of the flat list, and the whole table, as the body slices them. -/
abbrev iChunk (L : grid0.Coords) (k : Fin k0_t1_loop.trips) : Memref sig .scVector .hbm S128 .i32 :=
  (fV).slice (Rect.unit (s := S819200) (k0_off1 L k) S128.size (k0_off1_inb L k)) (fun _ => rfl)
abbrev xAll : Memref sig .scVector .hbm S130x128 .f32 :=
  (xV).slice (Rect.unit (s := S130x128) ![0, 0] S130x128.size inb_S130x128_S130x128_0_0) (fun _ => rfl)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- Holding all of a buffer is holding its whole view's element set. -/
theorem pts_univ_set {ℓ : Loc nD τ sig} {I : Finset (Idx ℓ)} (h : I = Finset.univ) (q : PosShare TreeShare) (f : Buf (Elt F) ℓ) :
    (ℓ ↦{q} f : sProp 𝕄) = ℓ ↦[I]{q} f := by rw [h]

omit [FloatOps F] in
/-- Every word of the flat list is at most 127: it is a word of the batch. -/
theorem flat_le (hpre : PreOK m) (y : S819200.Idx) : (flatOf m d y).toNat ≤ 127 := hpre d _

omit [FloatOps F] in
/-- The words the gather reads are in range: what the list fetch landed in the list buffer is 128 words of the flat list,
    each at most 127, below the table's 130 rows. -/
theorem inb_of_pre (hpre : PreOK m) (k : Fin k0_t1_loop.trips) (fs : Buf (Elt F) ((V d (cV L) (jV L)).loc cc0_scratch0)) (pay : S128.Idx → Elt F .i32)
    (hpay : pay = (iChunk L k).view.read (Elt F) (flatOf m d)) :
    ∀ x, ((sV).view.read (Elt F) (View.write (Elt F) (sV).view fs pay Finset.univ) x).toNat < S130x128.size gathers_S130x128_S128x128.axis := by
  subst hpay; intro x
  rw [View.write_whole_univ]
  simp only [Memref.view_whole, View.read_whole]
  rw [show ∀ j, (iChunk L k).view.read (Elt F) (flatOf m d) j = flatOf m d ((iChunk L k).view.emb j) from fun j => (View.read_apply _ _).trans (cast_eq _ _)]
  have h := flat_le m d hpre ((iChunk L k).view.emb x)
  show _ < 130
  omega

/-- The loop's invariant before trip `k`. -/
def inv (O : CellTallies nD τ sig (HIx 1)) (W : Waits sig (HIx 1)) (k : Nat) (_ : PUnit) : sProp 𝕄 :=
  iprop(Transfers.MayWaits (thr d L) (none : HIx 1) O
    ∗ ((fV).view.loc (thr d L) ↦{qT (L 0).val (L 1).val} flatOf m d)
    ∗ ((xV).view.loc (thr d L) ↦{qT (L 0).val (L 1).val} m (xLoc d))
    ∗ ((oW).view.loc (thr d L) ↦[doneSet (L 0).val (L 1).val k]{fullShare} rowsG m d)
    ∗ ((oW).view.loc (thr d L) ↦[tileSet (L 0).val (L 1).val \ doneSet (L 0).val (L 1).val k]{fullShare} m (oLoc d))
    ∗ (∃ fs, (sV).view.loc (thr d L) ↦{fullShare} fs)
    ∗ (∃ fr, (rV).view.loc (thr d L) ↦{fullShare} fr)
    ∗ semVal (cGcell d (cV L) (jV L)) 0 ∗ semVal (cAcell d (cV L) (jV L)) 0 ∗ semVal (cBcell d (cV L) (jV L)) 0
    ∗ ∃ W', ⌜∀ p ∈ W', p ∈ W ∨ p.2 = none⌝ ∗ owes (thr d L) O W')

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileIn m d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_kernel L fV (Memref.isWhole_whole _) xV (Memref.isWhole_whole _) oW (Memref.isWhole_whole _)
            sV (Memref.isWhole_whole _) rV (Memref.isWhole_whole _) cc0_scratch2 cc0_scoped0 cc0_scoped1)
          fun _ => iprop(tileOut m d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_kernel_eq_skeleton]; unfold cc0_sc_kernel_skel
  rw [(K (F := F)).scopedBufs_V hF d (cV L) (jV L), SparseCore.Cfg.scopedSems0_V (Val := Elt F) d (cV L) (jV L), ownSems0_V, ownBufs_V]
  unfold tileIn
  iintro ⟨#Hlv, -, ⟨Hf, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv m d L O W) $$ [Hmw Hf Hx Ho Hs Hr HsemG HsemA HsemB HO]
  case region =>
    intro k _
    unfold inv
    iintro ⟨Hmw, Hf, Hx, Hdone, Htodo, ⟨%fs, Hs⟩, ⟨%fr, Hr⟩, HsemG, HsemA, HsemB, %W', %hW', HO⟩
    rw [← todo_succ L k, ← done_succ L k]
    -- this trip's rows of the output, out of those not yet written
    ihave Ht := (pointsTo_split_subset (ℓ := (oChunk L k).view.loc (thr d L)) (q := fullShare) (f := m (oLoc d)) (chunk_sub_todo L k)).1 $$ Htodo
    icases Ht with ⟨Hck, Hrest⟩
    ihave Hck' := (Entails.of_eq (show ((oChunk L k).view.loc (thr d L) ↦[chunkSet L k]{fullShare} m (oLoc d) : sProp 𝕄)
      = ((oChunk L k).view.loc (thr d L) ↦[(oChunk L k).view.set]{fullShare} m (oLoc d)) from rfl)) $$ Hck
    -- the list fetch and its wait
    sl_exec
    -- the words just fetched name rows of the table: the gather is served whole; then its wait, the write-out and its wait
    have hin := inb_of_pre m d L hpre k fs (tile_body.sl.dma0 m d L k) rfl
    sl_exec
    sl_step
    -- the rows just written hold the lookup
    have hval : ∀ x ∈ chunkSet L k,
        (oChunk L k).view.writes (Elt F) (m (oLoc d)) [⟨Rect.whole S128x128, tile_body.sl.dma0_1 m d L k fs fr hin⟩] x = rowsG m d x := by
      intro x hx
      unfold rowsG
      exact chunk_value L k (flatOf m d) (m (xLoc d)) (m (oLoc d)) fs fr _ hin x hx
    ihave Hck2 := (Entails.of_eq (pointsTo_congr (ℓ := (oChunk L k).view.loc (thr d L)) (q := fullShare) (I := chunkSet L k) hval)) $$ Hck'
    ihave Hj := (pointsTo_union (ℓ := (oChunk L k).view.loc (thr d L)) (q := fullShare) (f := rowsG m d) (done_disjoint_chunk L k)).2 $$ [Hdone Hck2]
    · isplitl [Hdone]; · iexact Hdone
      iexact Hck2
    isplitl [Hmw]; · iexact Hmw
    isplitl [Hf]; · iexact Hf
    isplitl [Hx]; · iexact Hx
    isplitl [Hj]; · iexact Hj
    isplitl [Hrest]; · iexact Hrest
    isplitl [Hs]; · iexists _; iexact Hs
    isplitl [Hr]; · iexists _; iexact Hr
    isplitl [HsemG]; · iexact HsemG
    isplitl [HsemA]; · iexact HsemA
    isplitl [HsemB]; · iexact HsemB
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    rw [doneSet_zero, Finset.sdiff_empty, pointsTo_empty]
    isplitl [Hmw]; · iexact Hmw
    isplitl [Hf]; · iexact Hf
    isplitl [Hx]; · iexact Hx
    isplitr; · iempintro
    isplitl [Ho]; · iexact Ho
    isplitl [Hs]; · iexists _; iexact Hs
    isplitl [Hr]; · iexists _; iexact Hr
    isplitl [HsemG]; · iexact HsemG
    isplitl [HsemA]; · iexact HsemA
    isplitl [HsemB]; · iexact HsemB
    iexists W; isplitr
    · ipureintro; exact fun p hp => .inl hp
    · iexact HO
  iintro %_ HI
  unfold inv
  icases HI with ⟨-, Hf, Hx, Hdone, -, Hs, Hr, HsemG, HsemA, HsemB, %W', %hW', HO⟩
  sl_exec
  sl_step
  -- after the 200th trip the rows written are all the tile's rows
  have hall : doneSet (L 0).val (L 1).val (Scf.trips k0_t1_loop.lb k0_t1_loop.ub k0_t1_loop.st) = tileSet (L 0).val (L 1).val := by
    rw [show Scf.trips k0_t1_loop.lb k0_t1_loop.ub k0_t1_loop.st = 200 from trips_eq]; exact doneSet_all _ _
  ihave Hd := (Entails.of_eq (congrArg (fun I => ((oW).view.loc (thr d L) ↦[I]{fullShare} rowsG m d : sProp 𝕄)) hall)) $$ Hdone
  unfold tileOut
  isplitl [Hf Hx Hd]
  · isplitl [Hf]; · iexact Hf
    isplitl [Hx]; · iexact Hx
    iexact Hd
  isplitl [Hs Hr Hbufs]
  · isplitl [Hs]; · iexact Hs
    isplitl [Hr]; · iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

end Tile

end Cert.Proof.Kernel

end
-- ==== Proof.Kernel.Obl.lean ====
/-
  The tile's task as the launch asks for it: for every device, SparseCore `c` of the call's two and vector subcore `i` of its
  sixteen, the body table's row for that processor is the kernel at the place `(c, i)`, and its proof is the one proof of the
  body at a symbolic place.
-/
import proofs.«206145_g82884278878518_cont_9to1_m_1113_2_alg».proof.Defs
import proofs.«206145_g82884278878518_cont_9to1_m_1113_2_alg».proof.Proof.Gen.Kernel
import proofs.«206145_g82884278878518_cont_9to1_m_1113_2_alg».proof.Proof.Gen.Kernel.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.Kernel.Tile

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

local notation "fV" => (Memref.whole Cert.Kernel.main_v0_scv : Memref Cert.Kernel.sig Kind.scVector Space.hbm Cert.Kernel.S819200 EltTy.i32)
local notation "xV" => (Memref.whole Cert.Kernel.main_arg1_scv : Memref Cert.Kernel.sig Kind.scVector Space.hbm Cert.Kernel.S130x128 EltTy.f32)
local notation "oW" => (Memref.whole Cert.Kernel.main_v1_scv : Memref Cert.Kernel.sig Kind.scVector Space.hbm Cert.Kernel.S819200x128 EltTy.f32)
local notation "sV" => (Memref.whole Cert.Kernel.cc0_scratch0 : Memref Cert.Kernel.sig Kind.scVector Space.vmem Cert.Kernel.S128 EltTy.i32)
local notation "rV" => (Memref.whole Cert.Kernel.cc0_scratch1 : Memref Cert.Kernel.sig Kind.scVector Space.vmem Cert.Kernel.S128x128 EltTy.f32)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_kernel (coordsV c s)
          fV (Memref.isWhole_whole _) xV (Memref.isWhole_whole _) oW (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Cert.Proof.Kernel

end
-- ==== Proof.Kernel.Split.lean ====
/-
  A SparseCore's operands are its sixteen tiles' parts and nothing else, so splitting them among the tasks and gathering
  the results back is the identity: what the SparseCore is handed is the tasks' parts together, and what it hands back is
  what they hand back, together.
-/
import proofs.«206145_g82884278878518_cont_9to1_m_1113_2_alg».proof.Defs
import proofs.«206145_g82884278878518_cont_9to1_m_1113_2_alg».proof.Proof.Gen.Kernel
import proofs.«206145_g82884278878518_cont_9to1_m_1113_2_alg».proof.Proof.Gen.Kernel.Skeleton
import proofs.«206145_g82884278878518_cont_9to1_m_1113_2_alg».proof.Proof.LookupSpec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206145_g82884278878518_cont_9to1_m_1113_2_alg».proof.Proof.Kernel.Pay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

theorem vecSplit : (K (F := F)).VecSplit' (P m) 0 := by
  intro d c
  show (bigSep Finset.univ fun s : Fin 16 => tileIn m d c.val s.val)
    ⊢ |={Set.univ}=> iprop((bigSep Finset.univ fun s : Fin 16 => tileIn m d c.val s.val)
        ∗ ((bigSep Finset.univ fun s : Fin 16 => tileOut m d c.val s.val) -∗ bigSep Finset.univ fun s : Fin 16 => tileOut m d c.val s.val))
  iintro H; imodintro
  isplitl [H]; · iexact H
  iintro H; iexact H

end Cert.Proof.Kernel

end
-- ==== Proof.lean ====
/-
  The claim: a table lookup on the SparseCore against jnp.take.

  The reference returns, for a batch of 4096 x 200 words and a table of 130 rows of 128 numbers, the table's row named by
  each word: out[b, h, :] = table[words[b, h], :] (its negative-index wrap and its out-of-range mask do nothing when every word
  is between 0 and 127, which the precondition says). The kernel flattens the batch to 819200 words, has each of its thirty-two
  SparseCore tiles fill 25600 consecutive rows of a flat 819200 x 128 output (200 trips of: fetch 128 words, gather the 128 rows
  they name, write them out), and cuts the flat output back into the batch. Flattening is row-major on both sides, so the two
  results are the same array: entry (b, h, k) of the kernel's result is row 200 b + h of the flat lookup, which is the table's
  row named by flat word 200 b + h, which is word (b, h). Nothing here depends on the float values: the table's numbers are
  moved, never computed with.

  The three frames are the runs with the values dropped. The idealized kernel is the kernel's own text read at the extended
  reals (no rewrite was applied), so there is nothing to preserve.
-/
import proofs.«206145_g82884278878518_cont_9to1_m_1113_2_alg».proof.Defs
import proofs.«206145_g82884278878518_cont_9to1_m_1113_2_alg».proof.Proof.Gen.Kernel
import proofs.«206145_g82884278878518_cont_9to1_m_1113_2_alg».proof.Proof.Gen.Kernel.Skeleton
import proofs.«206145_g82884278878518_cont_9to1_m_1113_2_alg».proof.Proof.Gen.KernelIdeal
import proofs.«206145_g82884278878518_cont_9to1_m_1113_2_alg».proof.Proof.Gen.KernelIdeal.Skeleton
import proofs.«206145_g82884278878518_cont_9to1_m_1113_2_alg».proof.Proof.Gen.ReferenceIdeal
import proofs.«206145_g82884278878518_cont_9to1_m_1113_2_alg».proof.Proof.Gen.Pre_input_domain
import proofs.«206145_g82884278878518_cont_9to1_m_1113_2_alg».proof.Proof.LookupSpec
import proofs.«206145_g82884278878518_cont_9to1_m_1113_2_alg».proof.Proof.LookupLaws
import proofs.«206145_g82884278878518_cont_9to1_m_1113_2_alg».proof.Proof.PreRange
import proofs.«206145_g82884278878518_cont_9to1_m_1113_2_alg».proof.Proof.RefRun
import proofs.«206145_g82884278878518_cont_9to1_m_1113_2_alg».proof.Proof.RefValue
import proofs.«206145_g82884278878518_cont_9to1_m_1113_2_alg».proof.Proof.KernelIdeal.Main
import proofs.«206145_g82884278878518_cont_9to1_m_1113_2_alg».proof.Proof.KernelIdeal.Obl
import proofs.«206145_g82884278878518_cont_9to1_m_1113_2_alg».proof.Proof.KernelIdeal.Split
import proofs.«206145_g82884278878518_cont_9to1_m_1113_2_alg».proof.Proof.Kernel.Main
import proofs.«206145_g82884278878518_cont_9to1_m_1113_2_alg».proof.Proof.Kernel.Obl
import proofs.«206145_g82884278878518_cont_9to1_m_1113_2_alg».proof.Proof.Kernel.Split
import Idealize.ShloMosaic.Adequacy
import Idealize.ShloMosaic.Init

noncomputable section

namespace Cert.Proof

open Idealize.ShloMosaic Idealize.SL.Sem

/-- The precondition bounds every word of the batch, at either instance. -/
theorem preOK_bits (m : (ℓ : Loc Cert.Kernel.nD Cert.Kernel.τ Cert.Kernel.sig) → Buf (Elt Bits) ℓ) (h : Cert.Pre_Kernel m) :
    Cert.Proof.Kernel.PreOK (F := Bits) m :=
  fun d j => range_of_pre (F := Bits) _ _ (h d) j
theorem preOK_ideal (m : (ℓ : Loc Cert.KernelIdeal.nD Cert.KernelIdeal.τ Cert.KernelIdeal.sig) → Buf (Elt Ideal) ℓ) (h : Cert.Pre_KernelIdeal m) :
    Cert.Proof.KernelIdeal.PreOK (F := Ideal) m :=
  fun d j => range_of_pre (F := Ideal) _ _ (h d) j

/-- The kernel's run at the word-level instance: the result is the lookup, the arguments are kept. -/
theorem run_bits (m : (ℓ : Loc Cert.Kernel.nD Cert.Kernel.τ Cert.Kernel.sig) → Buf (Elt Bits) ℓ) (ρ : Dev Cert.Kernel.nD → PrngReg) (h : Cert.Pre_Kernel m) :
    θ_run (Cert.Kernel.defs (F := Bits)) (Cert.Kernel.threads (F := Bits)) ⟨m, fun _ => 0, ρ⟩
      (fun r => ∀ c : Dev Cert.Kernel.nD, r.2.mem (Cert.Proof.Kernel.rLoc c) = Cert.Proof.Kernel.resG m c
        ∧ r.2.mem (Cert.Proof.Kernel.iLoc c) = m (Cert.Proof.Kernel.iLoc c) ∧ r.2.mem (Cert.Proof.Kernel.xLoc c) = m (Cert.Proof.Kernel.xLoc c)) :=
  Cert.Proof.Kernel.run_of (F := Bits) m ρ (Cert.Proof.Kernel.tileObl m Cert.Proof.Kernel.facts (preOK_bits m h)) (Cert.Proof.Kernel.vecSplit m)
/-- The same run at the extended reals. -/
theorem run_ideal (m : (ℓ : Loc Cert.KernelIdeal.nD Cert.KernelIdeal.τ Cert.KernelIdeal.sig) → Buf (Elt Ideal) ℓ) (ρ : Dev Cert.KernelIdeal.nD → PrngReg) (h : Cert.Pre_KernelIdeal m) :
    θ_run (Cert.KernelIdeal.defs (F := Ideal)) (Cert.KernelIdeal.threads (F := Ideal)) ⟨m, fun _ => 0, ρ⟩
      (fun r => ∀ c : Dev Cert.KernelIdeal.nD, r.2.mem (Cert.Proof.KernelIdeal.rLoc c) = Cert.Proof.KernelIdeal.resG m c
        ∧ r.2.mem (Cert.Proof.KernelIdeal.iLoc c) = m (Cert.Proof.KernelIdeal.iLoc c) ∧ r.2.mem (Cert.Proof.KernelIdeal.xLoc c) = m (Cert.Proof.KernelIdeal.xLoc c)) :=
  Cert.Proof.KernelIdeal.run_of (F := Ideal) m ρ (Cert.Proof.KernelIdeal.tileObl m Cert.Proof.KernelIdeal.facts (preOK_ideal m h)) (Cert.Proof.KernelIdeal.vecSplit m)

theorem frame_k : Cert.frame_Kernel := fun m ρ h =>
  (θ_run Cert.Kernel.defs _ _).mono (fun _ hr c => (hr c).2) (run_bits m ρ h)
theorem frame_ki : Cert.frame_KernelIdeal := fun m ρ h =>
  (θ_run Cert.KernelIdeal.defs _ _).mono (fun _ hr c => (hr c).2) (run_ideal m ρ h)
theorem frame_ri : Cert.frame_ReferenceIdeal := fun m ρ _ =>
  (θ_run Cert.ReferenceIdeal.defs _ _).mono (fun _ hr c => (hr c).2) (Cert.Proof.Ref.run m ρ)

/-- The kernel's result is the lookup taken the long way round (flatten, look up, cut back). -/
theorem resG_eq (m : (ℓ : Loc Cert.KernelIdeal.nD Cert.KernelIdeal.τ Cert.KernelIdeal.sig) → Buf (Elt Ideal) ℓ) (c : Dev Cert.KernelIdeal.nD) :
    Cert.Proof.KernelIdeal.resG m c
      = Cert.Lookup.viaFlat (m (Cert.Proof.KernelIdeal.iLoc c)) (m (Cert.Proof.KernelIdeal.xLoc c)) := rfl

/-- At the extended reals both programs end with the lookup: the kernel's the long way round, the reference's directly, and
    the two arrangements are one array. -/
theorem algebraic : Cert.algebraic_KernelIdeal_ReferenceIdeal := by
  intro m ρ m' ρ' hpre hagree
  refine ⟨fun c => Cert.Proof.KernelIdeal.resG m c, run_ideal m ρ hpre, ?_⟩
  refine (θ_run Cert.ReferenceIdeal.defs _ _).mono (fun _ hr c => ⟨(hr c).1.trans ?_, (hr c).2⟩) (Cert.Proof.Ref.run m' ρ')
  rw [(hagree c).1, (hagree c).2, Cert.Proof.Ref.refTerm_eq_lookup _ _ (fun j => preOK_ideal m hpre c j)]
  exact ((resG_eq m c).trans (Cert.Lookup.viaFlat_eq _ _)).symm

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
